-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x8192 : Shape := ⟨3, ![32, 512, 8192]⟩
abbrev S512x512 : Shape := ⟨2, ![512, 512]⟩
abbrev S512 : Shape := ⟨1, ![512]⟩
abbrev S_ : Shape := ⟨0, ![]⟩

class Facts : Prop where
  bcast_S_S32x512x8192 : S_.BroadcastsInDim S32x512x8192 (![] : Fin 0 → Fin S32x512x8192.rank)
  reducesTo_S32x512x8192_S_d0_1_2 : S32x512x8192.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32x512x8192 .f32) (main_arg1 : FVec F S512x512 .f32) (main_arg2 : FVec F S512 .f32) (main_arg3 : FVec F S512 .f32) (main_arg4 : FVec F S512 .f32) (main_arg5 : FVec F S512 .f32) (main_arg6 : FVec F S512 .f32) (main_arg7 : FVec F S512x512 .f32) (main_arg8 : FVec F S512 .f32) : IVec S_ 1 :=
  let main_v0 : FVec F S32x512x8192 .f32 := Host.absf main_arg0
  let main_cst : FVec F S_ .f32 := constant S_ .f32 0x7F800000#32
  let main_v1 : FVec F S32x512x8192 .f32 := broadcastInDim S32x512x8192 ![] bcast_S_S32x512x8192 main_cst
  let main_v2 : IVec S32x512x8192 1 := cmpf .olt main_v0 main_v1
  let main_c : IVec S_ 1 := constantI S_ 1 1#1
  let main_v3 : IVec S_ 1 := (fun x v => Host.reduce IntOp.andi x v reducesTo_S32x512x8192_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S32x512x8192 : Shape := ⟨3, ![32, 512, 8192]⟩
abbrev S512x512 : Shape := ⟨2, ![512, 512]⟩
abbrev S512 : Shape := ⟨1, ![512]⟩
abbrev S32x512 : Shape := ⟨2, ![32, 512]⟩
abbrev S16x512x512 : Shape := ⟨3, ![16, 512, 512]⟩
abbrev S16x512 : Shape := ⟨2, ![16, 512]⟩
abbrev S1x512 : Shape := ⟨2, ![1, 512]⟩
abbrev S32x512x128 : Shape := ⟨3, ![32, 512, 128]⟩
abbrev S32x512x1 : Shape := ⟨3, ![32, 512, 1]⟩

abbrev nBuf : Space → Nat
  | .hbm => 12
  | .vmem => 20
  | .smem => 0
  | _ => 0

abbrev bufTy : (tb : Table) → Fin (tcTables nBuf tb) → BufTy
  | .hbm, ⟨0, _⟩ => ⟨S32x512x8192, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S32x512, .f32⟩
  | .hbm, ⟨10, _⟩ => ⟨S32x512, .f32⟩
  | .hbm, ⟨11, _⟩ => ⟨S32x512x8192, .f32⟩
  | .local _ .vmem, ⟨0, _⟩ => ⟨S16x512x512, .f32⟩
  | .local _ .vmem, ⟨1, _⟩ => ⟨S16x512x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S32x512, .f32⟩
  | .local _ .vmem, ⟨6, _⟩ => ⟨S512x512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S32x512, .f32⟩
  | .local _ .vmem, ⟨15, _⟩ => ⟨S32x512x128, .f32⟩
  | .local _ .vmem, ⟨16, _⟩ => ⟨S32x512x128, .f32⟩
  | .local _ .vmem, ⟨17, _⟩ => ⟨S32x512, .f32⟩
  | .local _ .vmem, ⟨18, _⟩ => ⟨S32x512x128, .f32⟩
  | .local _ .vmem, ⟨19, _⟩ => ⟨S32x512x128, .f32⟩
  | _, _ => ⟨S32x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S32x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x512x512_S16x512x512_0_0_0 : ∀ a, (![0, 0, 0] : Fin 3 → Nat) a + S16x512x512.size a ≤ S16x512x512.size a
  h_S16x512x512 : 0 < S16x512x512.numel
  reduces_S16x512x512_S16x512 : S16x512x512.Reduces [2] S16x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S32x512x128_S32x512x128_0_0_0 : ∀ a, (![0, 0, 0] : Fin 3 → Nat) a + S32x512x128.size a ≤ S32x512x128.size a
  h_S32x512x128 : 0 < S32x512x128.numel
  shapeCasts_S32x512_S32x512x1 : S32x512.ShapeCasts S32x512x1
  broadcasts_S32x512x1_S32x512x128 : S32x512x1.Broadcasts S32x512x128
  dot_S32x512_S512x512_S32x512_1_1_0_0_n_n_wf : DotDims.WF S32x512 S512x512 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x512.size a ≤ S32x512x8192.size a
  hwx0_0 : ∀ i : grid0.Coords, EltTy.bits .f32 = 32 ∨ (Rect.block (s := S32x512x8192) S16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S32x512.size a
  hwx0_1 : ∀ i : grid0.Coords, EltTy.bits .f32 = 32 ∨ (Rect.block (s := S32x512) S16x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S32x512.size a
  hwx1_0 : ∀ i : grid1.Coords, EltTy.bits .f32 = 32 ∨ (Rect.block (s := S32x512) S32x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x512.size a ≤ S32x512.size a
  hwx1_9 : ∀ i : grid1.Coords, EltTy.bits .f32 = 32 ∨ (Rect.block (s := S32x512) S32x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x512x128.size a ≤ S32x512x8192.size a
  hwx2_0 : ∀ i : grid2.Coords, EltTy.bits .f32 = 32 ∨ (Rect.block (s := S32x512x8192) S32x512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x512.size a ≤ S32x512.size a
  hwx2_1 : ∀ i : grid2.Coords, EltTy.bits .f32 = 32 ∨ (Rect.block (s := S32x512) S32x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x512x128.size a ≤ S32x512x8192.size a
  hwx2_2 : ∀ i : grid2.Coords, EltTy.bits .f32 = 32 ∨ (Rect.block (s := S32x512x8192) S32x512x128.size (cc2_transform_2 i) (hinb2_2 i)).WholeWords (EltTy.packing .f32)

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf

abbrev win0_0 : Pipeline.Window sig grid0 :=
  Pipeline.Window.ofSpec (Memref.whole main_arg0) S16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S32x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S32x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S32x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S32x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S32x512x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x512x8192 : Shape := ⟨3, ![32, 512, 8192]⟩
abbrev S512x512 : Shape := ⟨2, ![512, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S32x512x1 : Shape := ⟨3, ![32, 512, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x512x8192, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S32x512x8192, .f32⟩
  | .hbm, ⟨10, _⟩ => ⟨S_, .f32⟩
  | .hbm, ⟨11, _⟩ => ⟨S32x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S512x512, .f32⟩
  | .hbm, ⟨16, _⟩ => ⟨S32x512, .f32⟩
  | .hbm, ⟨17, _⟩ => ⟨S1x512, .f32⟩
  | .hbm, ⟨18, _⟩ => ⟨S32x512, .f32⟩
  | .hbm, ⟨19, _⟩ => ⟨S32x512, .f32⟩
  | .hbm, ⟨20, _⟩ => ⟨S1x512, .f32⟩
  | .hbm, ⟨21, _⟩ => ⟨S32x512, .f32⟩
  | .hbm, ⟨22, _⟩ => ⟨S32x512, .f32⟩
  | .hbm, ⟨23, _⟩ => ⟨S1x512, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S1x512, .f32⟩
  | .hbm, ⟨31, _⟩ => ⟨S32x512, .f32⟩
  | .hbm, ⟨32, _⟩ => ⟨S32x512, .f32⟩
  | .hbm, ⟨33, _⟩ => ⟨S1x512, .f32⟩
  | .hbm, ⟨34, _⟩ => ⟨S32x512, .f32⟩
  | .hbm, ⟨35, _⟩ => ⟨S32x512, .f32⟩
  | .hbm, ⟨36, _⟩ => ⟨S_, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S1x512, .f32⟩
  | .hbm, ⟨42, _⟩ => ⟨S32x512, .f32⟩
  | .hbm, ⟨43, _⟩ => ⟨S32x512, .f32⟩
  | .hbm, ⟨44, _⟩ => ⟨S32x512, .f32⟩
  | .hbm, ⟨45, _⟩ => ⟨S32x512, .f32⟩
  | .hbm, ⟨46, _⟩ => ⟨S_, .f32⟩
  | .hbm, ⟨47, _⟩ => ⟨S32x512, .f32⟩
  | .hbm, ⟨48, _⟩ => ⟨S32x512, .f32⟩
  | .hbm, ⟨49, _⟩ => ⟨S_, .f32⟩
  | .hbm, ⟨50, _⟩ => ⟨S32x512, .f32⟩
  | .hbm, ⟨51, _⟩ => ⟨S32x512, .f32⟩
  | .hbm, ⟨52, _⟩ => ⟨S32x512, .f32⟩
  | .hbm, ⟨53, _⟩ => ⟨S32x512x1, .f32⟩
  | .hbm, ⟨54, _⟩ => ⟨S32x512x8192, .f32⟩
  | .hbm, ⟨55, _⟩ => ⟨S32x512x8192, .f32⟩
  | .hbm, ⟨56, _⟩ => ⟨S_, .f32⟩
  | .hbm, ⟨57, _⟩ => ⟨S32x512x8192, .f32⟩
  | .hbm, ⟨58, _⟩ => ⟨S32x512x8192, .f32⟩
  | _, _ => ⟨S32x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  reducesTo_S32x512x8192_S32x512_d2 : S32x512x8192.ReducesTo [2] S32x512
  h_S_ : 0 < S_.numel
  bcast_S_S32x512 : S_.BroadcastsInDim S32x512 (![] : Fin 0 → Fin S32x512.rank)
  transposes_S512x512_S512x512_1_0 : S512x512.Transposes [1, 0] S512x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S512 : S_.BroadcastsInDim S512 (![] : Fin 0 → Fin S512.rank)
  bcast_S32x512_S32x512x1_0_1 : S32x512.BroadcastsInDim S32x512x1 (![0, 1] : Fin 2 → Fin S32x512x1.rank)
  bcast_S32x512x1_S32x512x8192_0_1_2 : S32x512x1.BroadcastsInDim S32x512x8192 (![0, 1, 2] : Fin 3 → Fin S32x512x8192.rank)
  bcast_S_S32x512x8192 : S_.BroadcastsInDim S32x512x8192 (![] : Fin 0 → Fin S32x512x8192.rank)
  dot_S32x512_S512x512_S32x512_1_0_0_1_n_n_wf : DotDims.WF S32x512 S512x512 S32x512 [1] [0] [0] [1] [] []

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

class Facts : Prop extends Facts₀ where

variable [Facts]
-- ==== Proof.Kernel.ReduceBase.lean ====
/-
  The first kernel region: the mean over the long axis. Its grid is 2 × 16: the first coordinate picks a half of
  the batch (16 rows), the second walks the long axis in 16 blocks of 512. At each point the body adds the block's
  row sums into a scratch accumulator [16, 512]; at the first point of a sweep it zeroes the accumulator first, at the
  last it stores the accumulator times 2⁻¹³ into the output block. This module holds what the three cases of the body
  (first point of a sweep, a middle point, last point) share: the two conditions in closed form over the grid, where the
  output window is idle, the staging and scratch memrefs, and the region's resting invariant with the accumulator's
  buffer split off the other scoped buffers.
-/
import proofs.«172012_j78245714198911_2_alg».proof.Proof.Gen.Kernel.Launch
import proofs.«172012_j78245714198911_2_alg».proof.Proof.Gen.Kernel.Skeleton
import proofs.«172012_j78245714198911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first condition: the point starts a sweep (second coordinate 0). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body's second condition: the point ends a sweep (second coordinate 15). -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-- The input window is never idle. -/
theorem live0_0 : ∀ t : Fin cfg0.N, cfg0.idle 0 (grid0.coords t) = false := by decide +kernel
/-- Away from a sweep's last point the body stores nothing into the output window, and it is not written back. -/
theorem idle0_1 : ∀ t : Fin cfg0.N, ¬atLast (grid0.coords t) → cfg0.idle 1 (grid0.coords t) = true := by decide +kernel
theorem noFlush0_1 : ∀ t : Fin cfg0.N, ¬atLast (grid0.coords t) → (cfg0.win 1).flush t = false := by decide +kernel
/-- At a sweep's last point the output window is live. -/
theorem live0_1 : ∀ t : Fin cfg0.N, atLast (grid0.coords t) → cfg0.idle 1 (grid0.coords t) = false := by decide +kernel

/-- A staging buffer of the output window, through which its contents are stated. -/
abbrev outV : View sig .tc .vmem S16x512 .f32 := (Memref.whole cc0_stg1_0 : Memref sig .tc .vmem S16x512 .f32).view
/-- The windows' current staging memrefs at point `t`, as the pipeline passes them. -/
abbrev inM (t : Fin cfg0.N) : Memref sig .tc .vmem S16x512x512 .f32 := win0_0.stage (cfg0.slots t 0)
abbrev inM_whole (t : Fin cfg0.N) : (inM t).IsWhole := hstage0_0 ((cfg0.slots t 0).cast nbuf0_0)
abbrev outM (t : Fin cfg0.N) : Memref sig .tc .vmem S16x512 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S16x512 .f32 := Memref.whole cc0_scratch0
abbrev accV : View sig .tc .vmem S16x512 .f32 := accM.view

/-- The scoped buffers that are neither a staging buffer of this region nor the accumulator (the other regions'
    staging buffers), each at some contents: carried through the region unopened. -/
def others0 (c : Dev nD) : sProp 𝕄 :=
  Pipeline.scopedRestBut (Ix := Unit) (Name := ℕ) (U := UR sig nD τ) (Lvl := ℕ) (Val := Elt F) spec0 c [cc0_scratch0]

/-- The region's resting invariant with the accumulator's buffer named: the accumulator at some contents, the other
    scoped buffers, the generator register at some state. -/
theorem rest0_eq (c : Dev nD) :
    (Pipeline.ΦA spec0 c : sProp 𝕄)
      = iprop(((∃ d, owns (c : Thread nD τ) accM fullShare d) ∗ others0 c) ∗ (∃ r, prngReg c r)) := by
  unfold Pipeline.ΦA others0
  rw [Pipeline.scopedRest_split_of_list spec0 c [cc0_scratch0] (by decide) (by decide)]
  simp only [BI.bigSepL_singleton, accM, owns_whole]
  rfl

section Region
variable (V : (c : Dev nD) → (b : Ref sig .tc) → Buf (Elt F) ((c : Thread nD τ).loc b))

/-- Window `w`'s block at point `t`, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

end Region

end Cert.Kernel.Fr

end
-- ==== Proof.Kernel.ReduceFirst.lean ====
/-
  The first kernel region's body run at the first point of a sweep (the accumulator is zeroed, then added to; nothing is stored into the output block): the body's triple on whole staging memrefs, with the pieces it leaves
  in the accumulator (and in the output block, when it stores there) found by running the body.
-/
import proofs.«172012_j78245714198911_2_alg».proof.Proof.Kernel.ReduceBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a sweep's first point: the input block at `x0`, the output buffer at `xi` (handed back untouched), the accumulator
    at anything; the body ends with the accumulator at its pieces `LS` written over what it held. -/
noncomputable def runFirst (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : atFirst i) (hc1 : ¬atLast i)
    (x0 : Vec F S16x512x512 .f32) :
    Σ' (L1 : List (View.Piece (Elt F) S16x512 .f32)), { LS : List (View.Piece (Elt F) S16x512 .f32) //
      ∀ (xi : Vec F S16x512 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨[], ?_, fun xi E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Kernel.ReduceMiddle.lean ====
/-
  The first kernel region's body run at a middle point of a sweep (the block's row sums are added to the accumulator; nothing is stored into the output block): the body's triple on whole staging memrefs, with the pieces it leaves
  in the accumulator (and in the output block, when it stores there) found by running the body.
-/
import proofs.«172012_j78245714198911_2_alg».proof.Proof.Kernel.ReduceBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point: the input block at `x0`, the output buffer at `xi` (handed back untouched), the accumulator at
    `xs`, what the point before left; the body ends with the accumulator at its pieces `LS` written. -/
noncomputable def runMiddle (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : ¬atFirst i) (hc1 : ¬atLast i)
    (x0 : Vec F S16x512x512 .f32) (xs : Vec F S16x512 .f32) :
    Σ' (L1 : List (View.Piece (Elt F) S16x512 .f32)), { LS : List (View.Piece (Elt F) S16x512 .f32) //
      ∀ (xi : Vec F S16x512 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨[], ?_, fun xi E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Kernel.ReduceLast.lean ====
/-
  The first kernel region's body run at the last point of a sweep (the block's row sums are added to the accumulator, and the accumulator times 2⁻¹³ is stored into the output block): the body's triple on whole staging memrefs, with the pieces it leaves
  in the accumulator (and in the output block, when it stores there) found by running the body.
-/
import proofs.«172012_j78245714198911_2_alg».proof.Proof.Kernel.ReduceBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a sweep's last point: the input block at `x0`, the output buffer at anything, the accumulator at `xs`; the body
    ends with the output buffer at its pieces `L1` written and the accumulator at its pieces `LS` written. -/
noncomputable def runLast (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : ¬atFirst i) (hc1 : atLast i)
    (x0 : Vec F S16x512x512 .f32) (xs : Vec F S16x512 .f32) :
    Σ' (L1 : List (View.Piece (Elt F) S16x512 .f32)), { LS : List (View.Piece (Elt F) S16x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.Kernel.Reduce.lean ====
/-
  The first kernel region, assembled: what the accumulator and the output block hold after each grid point, by
  recursion on the point — at a sweep's first point the body's pieces over the input block alone, at a later point over
  the input block and what the point before left in the accumulator —, the region's invariant (before the first point
  the resting one; afterwards the accumulator at what the point before left, the other scoped buffers and the generator
  register untouched), the proof data and the body obligation at every point.
-/
import proofs.«172012_j78245714198911_2_alg».proof.Proof.Kernel.ReduceFirst
import proofs.«172012_j78245714198911_2_alg».proof.Proof.Kernel.ReduceMiddle
import proofs.«172012_j78245714198911_2_alg».proof.Proof.Kernel.ReduceLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three runs at a grid point, on the memrefs the pipeline passes there. -/
abbrev firstRun (c : Dev nD) (t : Fin cfg0.N) (h0 : t.val % 16 = 0) (x0 : Vec F S16x512x512 .f32) :=
  runFirst (F := F) c (grid0.coords t) (inM t) (inM_whole t) (outM t) (outM_whole t) accM (Memref.isWhole_whole _)
    ((atFirst_iff t).mpr h0) (fun h => by have := (atLast_iff t).mp h; omega) x0
abbrev middleRun (c : Dev nD) (t : Fin cfg0.N) (h0 : ¬t.val % 16 = 0) (h1 : ¬t.val % 16 = 15) (x0 : Vec F S16x512x512 .f32) (xs : Vec F S16x512 .f32) :=
  runMiddle (F := F) c (grid0.coords t) (inM t) (inM_whole t) (outM t) (outM_whole t) accM (Memref.isWhole_whole _)
    (fun h => h0 ((atFirst_iff t).mp h)) (fun h => h1 ((atLast_iff t).mp h)) x0 xs
abbrev lastRun (c : Dev nD) (t : Fin cfg0.N) (h0 : ¬t.val % 16 = 0) (h1 : t.val % 16 = 15) (x0 : Vec F S16x512x512 .f32) (xs : Vec F S16x512 .f32) :=
  runLast (F := F) c (grid0.coords t) (inM t) (inM_whole t) (outM t) (outM_whole t) accM (Memref.isWhole_whole _)
    (fun h => h0 ((atFirst_iff t).mp h)) ((atLast_iff t).mpr h1) x0 xs

/-- What a run's pieces leave in the accumulator / in the output block, read back. -/
def accOf (L : List (View.Piece (Elt F) S16x512 .f32)) : Vec F S16x512 .f32 :=
  accV.read (Elt F) (accV.writes (Elt F) accV.junk L)
def outOf (L : List (View.Piece (Elt F) S16x512 .f32)) : Vec F S16x512 .f32 :=
  outV.read (Elt F) (outV.writes (Elt F) outV.junk L)

/-- Each run's accumulator pieces cover the accumulator; the last run's output pieces cover the output block. -/
theorem firstRun_cover (c : Dev nD) (t : Fin cfg0.N) (h0) (x0 : Vec F S16x512x512 .f32) (y : S16x512.Idx) :
    ∃ pc ∈ (firstRun c t h0 x0).2.1, y ∈ pc.1.set :=
  View.cover_of_tiledL (firstRun c t h0 x0).2.1 S16x512.size (by sl_kernel_rfl) y
theorem middleRun_cover (c : Dev nD) (t : Fin cfg0.N) (h0 h1) (x0 : Vec F S16x512x512 .f32) (xs : Vec F S16x512 .f32) (y : S16x512.Idx) :
    ∃ pc ∈ (middleRun c t h0 h1 x0 xs).2.1, y ∈ pc.1.set :=
  View.cover_of_tiledL (middleRun c t h0 h1 x0 xs).2.1 S16x512.size (by sl_kernel_rfl) y
theorem lastRun_cover (c : Dev nD) (t : Fin cfg0.N) (h0 h1) (x0 : Vec F S16x512x512 .f32) (xs : Vec F S16x512 .f32) (y : S16x512.Idx) :
    ∃ pc ∈ (lastRun c t h0 h1 x0 xs).2.1, y ∈ pc.1.set :=
  View.cover_of_tiledL (lastRun c t h0 h1 x0 xs).2.1 S16x512.size (by sl_kernel_rfl) y
theorem lastRun_outCover (c : Dev nD) (t : Fin cfg0.N) (h0 h1) (x0 : Vec F S16x512x512 .f32) (xs : Vec F S16x512 .f32) (y : S16x512.Idx) :
    ∃ pc ∈ (lastRun c t h0 h1 x0 xs).1, y ∈ pc.1.set :=
  View.cover_of_tiledL (lastRun c t h0 h1 x0 xs).1 S16x512.size (by sl_kernel_rfl) y

section Region
variable (V : (c : Dev nD) → (b : Ref sig .tc) → Buf (Elt F) ((c : Thread nD τ).loc b))

/-- THE ACCUMULATION: what the output block's buffer (first component; a placeholder where the body stores nothing
    there) and the accumulator (second component) hold after the body at position `n`. -/
def leftAt (c : Dev nD) : (n : ℕ) → n < cfg0.N → Vec F S16x512 .f32 × Vec F S16x512 .f32
  | 0, hn => (outOf [], accOf (firstRun c ⟨0, hn⟩ (Nat.zero_mod _) (blk0 V c 0 ⟨0, hn⟩)).2.1)
  | n + 1, hn =>
    if h0 : (n + 1) % 16 = 0 then
      (outOf [], accOf (firstRun c ⟨n + 1, hn⟩ h0 (blk0 V c 0 ⟨n + 1, hn⟩)).2.1)
    else
      if h1 : (n + 1) % 16 = 15 then
        (outOf (lastRun c ⟨n + 1, hn⟩ h0 h1 (blk0 V c 0 ⟨n + 1, hn⟩) (leftAt c n (Nat.lt_of_succ_lt hn)).2).1,
         accOf (lastRun c ⟨n + 1, hn⟩ h0 h1 (blk0 V c 0 ⟨n + 1, hn⟩) (leftAt c n (Nat.lt_of_succ_lt hn)).2).2.1)
      else
        (outOf [], accOf (middleRun c ⟨n + 1, hn⟩ h0 h1 (blk0 V c 0 ⟨n + 1, hn⟩) (leftAt c n (Nat.lt_of_succ_lt hn)).2).2.1)

theorem leftAt_first (c : Dev nD) (t : Fin cfg0.N) (h0 : t.val % 16 = 0) :
    leftAt V c t.val t.isLt = (outOf [], accOf (firstRun c t h0 (blk0 V c 0 t)).2.1) := by
  obtain ⟨n, hn⟩ := t
  cases n with
  | zero => exact rfl
  | succ n => exact (dif_pos h0).trans rfl

theorem leftAt_middle (c : Dev nD) (t : Fin cfg0.N) (h0 : ¬t.val % 16 = 0) (h1 : ¬t.val % 16 = 15) :
    leftAt V c t.val t.isLt = (outOf [], accOf (middleRun c t h0 h1 (blk0 V c 0 t)
      (leftAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg0.N) (h0 : ¬t.val % 16 = 0) (h1 : t.val % 16 = 15) :
    leftAt V c t.val t.isLt = (outOf (lastRun c t h0 h1 (blk0 V c 0 t) (leftAt V c (t.val - 1) (Nat.lt_of_le_of_lt (Nat.sub_le _ _) t.isLt)).2).1,
      accOf (lastRun c t h0 h1 (blk0 V c 0 t) (leftAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def inv0 (c : Dev nD) : (n : ℕ) → n ≤ cfg0.N → sProp 𝕄
  | 0, _ => Pipeline.ΦA spec0 c
  | n + 1, hn => iprop((owns (c : Thread nD τ) accM fullShare ((leftAt V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) accM fullShare ((leftAt V c n hn).2) ∗ others0 c) ∗ (∃ r, prngReg c r)) := rfl
theorem inv0_pos (c : Dev nD) (n : ℕ) (h : n ≤ cfg0.N) (hz : n ≠ 0) :
    inv0 V c n h = iprop((owns (c : Thread nD τ) accM fullShare ((leftAt V c (n - 1) (by omega)).2) ∗ others0 c) ∗ (∃ r, prngReg c r)) := by
  cases n with
  | zero => exact absurd rfl hz
  | succ n => rfl

/-- The region's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAt V c t.val t.isLt).1
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_inv_castSucc (c : Dev nD) (t : Fin cfg0.N) :
    (dat0 V c).Φ t.castSucc = inv0 V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = (leftAt V c t.val t.isLt).1 := by dsimp only [dat0]
theorem dat0_before0 (c : Dev nD) (t : Fin cfg0.N) (d) : (dat0 V c).before 0 t d = blk0 V c 0 t :=
  found0_0 V (dat0 V c) (dat0_A V c 0) (dat0_after0 V c) t d

def pre0 (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which of the three cases the point is in; the invariant hands the body
    the accumulator at what the point before left (at anything before the first point) and takes it back at this
    point's contents; the other scoped buffers, the generator register and the core's dues pass through. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (inM t) fullShare ((dat0 V c).after 0 t) from by
    unfold Dat.leavesExact; rw [live0_0 t], dat0_after0]
  by_cases h0 : t.val % 16 = 0
  · have hnl : ¬atLast (grid0.coords t) := fun h => by have := (atLast_iff t).mp h; omega
    rw [Dat.leavesExact_idle (dat0 V c) 1 t (idle0_1 t hnl) (noFlush0_1 t hnl)]
    rw [leftAt_first V c t h0]
    (try dsimp only)
    by_cases hz : t.val = 0
    · rw [dat0_inv_castSucc V c t, inv0_zero V c _ _ hz, rest0_eq]
      iintro ⟨⟨⟨HS0, Hoth⟩, Hg⟩, Ho, ⟨%d0, H0⟩, ⟨%d1, H1⟩⟩
      iapply ((firstRun c t h0 (blk0 V c 0 t)).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (firstRun_cover c t h0 _)
          iexact Hoth
        iexact Hg
      isplitl [Ho]; · iexact Ho
      isplitl [H0]; · iexact H0
      iexists _; iexact H1
    · rw [dat0_inv_castSucc V c t, inv0_pos V c _ _ hz]
      iintro ⟨⟨⟨HS0, Hoth⟩, Hg⟩, Ho, ⟨%d0, H0⟩, ⟨%d1, H1⟩⟩
      iapply ((firstRun c t h0 (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (firstRun_cover c t h0 _)
          iexact Hoth
        iexact Hg
      isplitl [Ho]; · iexact Ho
      isplitl [H0]; · iexact H0
      iexists _; iexact H1
  · have hz : t.val ≠ 0 := fun h => h0 (by rw [h])
    by_cases h1 : t.val % 16 = 15
    · rw [show (dat0 V c).leavesExact 1 t = owns (c : Thread nD τ) (outM t) fullShare ((dat0 V c).after 1 t) from by
        unfold Dat.leavesExact; rw [live0_1 t ((atLast_iff t).mpr h1)], dat0_after1]
      rw [leftAt_last V c t h0 h1]
      (try dsimp only)
      rw [dat0_inv_castSucc V c t, inv0_pos V c _ _ hz]
      iintro ⟨⟨⟨HS0, Hoth⟩, Hg⟩, Ho, ⟨%d0, H0⟩, ⟨%d1, H1⟩⟩
      iapply ((lastRun c t h0 h1 (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (lastRun_cover c t h0 h1 _ _)
          iexact Hoth
        iexact Hg
      isplitl [Ho]; · iexact Ho
      isplitl [H0]; · iexact H0
      unfold owns; iexists _; isplitr
      swap; · iexact H1
      ipureintro; exact View.read_writes_of_cover _ _ _ _ _ (lastRun_outCover c t h0 h1 _ _)
    · have hnl : ¬atLast (grid0.coords t) := fun h => h1 ((atLast_iff t).mp h)
      rw [Dat.leavesExact_idle (dat0 V c) 1 t (idle0_1 t hnl) (noFlush0_1 t hnl)]
      rw [leftAt_middle V c t h0 h1]
      (try dsimp only)
      rw [dat0_inv_castSucc V c t, inv0_pos V c _ _ hz]
      iintro ⟨⟨⟨HS0, Hoth⟩, Hg⟩, Ho, ⟨%d0, H0⟩, ⟨%d1, H1⟩⟩
      iapply ((middleRun c t h0 h1 (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (middleRun_cover c t h0 h1 _ _)
          iexact Hoth
        iexact Hg
      isplitl [Ho]; · iexact Ho
      isplitl [H0]; · iexact H0
      iexists _; iexact H1

theorem obligation0 (c : Dev nD) : BodyObligation (dat0 (F := F) V c) (defs₀ (F := F)) Variants.none () Set.univ := fun t => by
  rw [bigSep_W0, bigSep_W0]
  exact point0 V c t

/-- Before the first point the invariant is the resting one. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the resting one back: the accumulator's contents are forgotten. -/
theorem inv0_out (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl,
    inv0_pos V c _ _ ht, rest0_eq]
  iintro ⟨⟨HS0, Hoth⟩, Hg⟩
  isplitl [HS0 Hoth]
  · isplitl [HS0]
    · iexists _; iexact HS0
    iexact Hoth
  iexact Hg

end Region

end Cert.Kernel.Fr

end
-- ==== Proof.Kernel.Gate.lean ====
/-
  The second kernel region: the gate. Its grid has one point; the body reads the pooled means [32, 512], the two
  weight matrices and the six vectors whole, computes linear – normalisation – relu – linear – logistic and the product
  with the means, and stores the [32, 512] threshold array. What the output buffer holds after the body is one
  function of the nine input blocks, each of which is its whole array.
-/
import proofs.«172012_j78245714198911_2_alg».proof.Proof.Gen.Kernel.Launch
import proofs.«172012_j78245714198911_2_alg».proof.Proof.Gen.Kernel.Skeleton
import proofs.«172012_j78245714198911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-- Window `w`'s block at point `t`, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at the point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at the point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at the point. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at the point. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block at the point. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block at the point. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's staging buffer holds its block at the point. -/
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7's staging buffer holds its block at the point. -/
theorem found1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- Input window 8's staging buffer holds its block at the point. -/
theorem found1_8 {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

abbrev boxA : Rect S32x512 := Rect.unit (s := S32x512) ![0, 0] S32x512.size inb_S32x512_S32x512_0_0
abbrev boxW : Rect S512x512 := Rect.unit (s := S512x512) ![0, 0] S512x512.size inb_S512x512_S512x512_0_0
abbrev boxV : Rect S512 := Rect.unit (s := S512) ![0] S512.size inb_S512_S512_0

/-- What the body leaves in the output buffer: its one store, of the payload of the nine loads. -/
def res1 (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) : Vec F S32x512 .f32 :=
  View.canon [⟨boxA, k1_pay1 (View.ld x0 boxA) (View.ld x1 boxW) (View.ld x2 boxV) (View.ld x3 boxV) (View.ld x5 boxV) (View.ld x6 boxV) (View.ld x4 boxV) (View.ld x7 boxW) (View.ld x8 boxV)⟩]

theorem covers1 (p0 : Vec F S32x512 .f32) (y : S32x512.Idx) :
    ∃ pc ∈ ([⟨boxA, p0⟩] : List (View.Piece (Elt F) S32x512 .f32)), y ∈ pc.1.set :=
  View.cover_of_tiled [⟨boxA, p0⟩] S32x512.size (by rfl) y

set_option maxHeartbeats 4000000 in
/-- The body's triple: on whole staging memrefs, the inputs' at `x0 … x8` and the output's at anything, it runs to
    the continuation holding the inputs as they were and the output at `res1` of them. -/
theorem body1 (c : Dev nD) (E : Set ℕ) (i : grid1.Coords)
    (arg1 : Memref sig .tc .vmem S32x512 .f32) (harg1 : arg1.IsWhole)
    (arg2 : Memref sig .tc .vmem S512x512 .f32) (harg2 : arg2.IsWhole)
    (arg3 : Memref sig .tc .vmem S512 .f32) (harg3 : arg3.IsWhole)
    (arg4 : Memref sig .tc .vmem S512 .f32) (harg4 : arg4.IsWhole)
    (arg5 : Memref sig .tc .vmem S512 .f32) (harg5 : arg5.IsWhole)
    (arg6 : Memref sig .tc .vmem S512 .f32) (harg6 : arg6.IsWhole)
    (arg7 : Memref sig .tc .vmem S512 .f32) (harg7 : arg7.IsWhole)
    (arg8 : Memref sig .tc .vmem S512x512 .f32) (harg8 : arg8.IsWhole)
    (arg9 : Memref sig .tc .vmem S512 .f32) (harg9 : arg9.IsWhole)
    (arg10 : Memref sig .tc .vmem S32x512 .f32) (harg10 : arg10.IsWhole)
    (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (res1 x0 x1 x2 x3 x4 x5 x6 x7 x8)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10) K := by
  simp only [cc1__gate_kernel_eq_skeleton]; unfold cc1__gate_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers1 _)

/-- The region's proof data: the arrays as found; the inputs' buffers at their blocks, the output's at the body's
    result; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => res1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = blk1 V c 7 t := by dsimp only [dat1]
theorem dat1_after8 (c : Dev nD) (t : Fin cfg1.N) : (dat1 V c).after 8 t = blk1 V c 8 t := by dsimp only [dat1]
theorem dat1_after9 (c : Dev nD) (t : Fin cfg1.N) : (dat1 V c).after 9 t = res1 (blk1 V c 0 t) (blk1 V c 1 t) (blk1 V c 2 t) (blk1 V c 3 t) (blk1 V c 4 t) (blk1 V c 5 t) (blk1 V c 6 t) (blk1 V c 7 t) (blk1 V c 8 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d
theorem dat1_before6 (c : Dev nD) (t : Fin cfg1.N) (d) : (dat1 V c).before 6 t d = blk1 V c 6 t :=
  found1_6 V (dat1 V c) (dat1_A V c 6) (dat1_after6 V c) t d
theorem dat1_before7 (c : Dev nD) (t : Fin cfg1.N) (d) : (dat1 V c).before 7 t d = blk1 V c 7 t :=
  found1_7 V (dat1 V c) (dat1_A V c 7) (dat1_after7 V c) t d
theorem dat1_before8 (c : Dev nD) (t : Fin cfg1.N) (d) : (dat1 V c).before 8 t d = blk1 V c 8 t :=
  found1_8 V (dat1 V c) (dat1_A V c 8) (dat1_after8 V c) t d

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7, dat1_before8]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8, dat1_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body1 c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation1 (c : Dev nD) : BodyObligation (dat1 (F := F) V c) (defs₀ (F := F)) Variants.none () Set.univ := fun t => by
  rw [bigSep_W1, bigSep_W1]
  exact point1 V c t

end Region

end Cert.Kernel.Fr

end
-- ==== Proof.Kernel.Combine.lean ====
/-
  The third kernel region: the soft-threshold combine. At each of its 64 grid points the body reads one block
  [32, 512, 128] of the big array and the whole [32, 512] threshold array, and stores min(|x| − thr, 0) into the
  output block. The body keeps nothing between points, so what each output block holds after the body is one
  function of the two input blocks, and the region's record of obligations is the plain one: the inputs' buffers
  hold their blocks whether fetched at the point or not, the output's buffer holds the body's one store.
-/
import proofs.«172012_j78245714198911_2_alg».proof.Proof.Gen.Kernel.Launch
import proofs.«172012_j78245714198911_2_alg».proof.Proof.Gen.Kernel.Skeleton
import proofs.«172012_j78245714198911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-- Window `w`'s block at point `t`, read off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The big array's current staging buffer holds its block at every point. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The threshold array is fetched once; its staging buffer holds the (whole-array) block at every point. -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

abbrev box2 : Rect S32x512x128 := Rect.unit (s := S32x512x128) ![0, 0, 0] S32x512x128.size inb_S32x512x128_S32x512x128_0_0_0
abbrev box2t : Rect S32x512 := Rect.unit (s := S32x512) ![0, 0] S32x512.size inb_S32x512_S32x512_0_0

/-- What the body leaves in the output block: its one store, of the payload of the two loads. -/
def res2 (x0 : Vec F S32x512x128 .f32) (x1 : Vec F S32x512 .f32) : Vec F S32x512x128 .f32 :=
  View.canon [⟨box2, k2_pay1 (View.ld x0 box2) (View.ld x1 box2t)⟩]

theorem covers2 (p0 : Vec F S32x512x128 .f32) (y : S32x512x128.Idx) :
    ∃ pc ∈ ([⟨box2, p0⟩] : List (View.Piece (Elt F) S32x512x128 .f32)), y ∈ pc.1.set :=
  View.cover_of_tiled [⟨box2, p0⟩] S32x512x128.size (by rfl) y

set_option maxHeartbeats 1000000 in
/-- The body's triple: on whole staging memrefs, the inputs' at `x0`, `x1` and the output's at anything, it runs to
    the continuation holding the inputs as they were and the output at `res2 x0 x1`. -/
theorem body2 (c : Dev nD) (E : Set ℕ) (i : grid2.Coords) (arg1 : Memref sig .tc .vmem S32x512x128 .f32) (harg1 : arg1.IsWhole)
    (arg2 : Memref sig .tc .vmem S32x512 .f32) (harg2 : arg2.IsWhole) (arg3 : Memref sig .tc .vmem S32x512x128 .f32) (harg3 : arg3.IsWhole)
    (x0 : Vec F S32x512x128 .f32) (x1 : Vec F S32x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res2 x0 x1)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- The region's proof data: the arrays as found; the inputs' buffers at their blocks, the output's at the body's
    result; the invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = res2 (blk2 V c 0 t) (blk2 V c 1 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation2 (c : Dev nD) : BodyObligation (dat2 (F := F) V c) (defs₀ (F := F)) Variants.none () Set.univ := fun t => by
  rw [bigSep_W2, bigSep_W2]
  exact point2 V c t

end Region

end Cert.Kernel.Fr

end
-- ==== Proof.Kernel.Run.lean ====
/-
  The whole program: three kernel regions in a row, with nothing between them. The contents of the core's unscoped
  buffers at each boundary are a fold from the launch memory: a region leaves its arrays at what its write-backs
  leave and every other buffer as it found it. Each region is entered from "every unscoped buffer at the boundary's
  contents, the generator register at some state, nothing owed" and left at the same at the next boundary. The run's
  post names every unscoped buffer's final contents; the frame claim and the value of the result are read off it.
-/
import proofs.«172012_j78245714198911_2_alg».proof.Proof.Kernel.Reduce
import proofs.«172012_j78245714198911_2_alg».proof.Proof.Kernel.Gate
import proofs.«172012_j78245714198911_2_alg».proof.Proof.Kernel.Combine

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the mean region: its arrays at what the pipeline leaves, the rest as before. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem left0 (c : Dev nD) (w : Fin cfg0.W) : (dat0 (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the gate region. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
abbrev E2 : (c : Dev nD) → (b : Ref sig .tc) → Buf (Elt F) ((c : Thread nD τ).loc b) := fun c b => B2 m ρ c b
theorem left1 (c : Dev nD) (w : Fin cfg1.W) : (dat1 (E1 m ρ) c).arrAt w cfg1.N = E2 m ρ c (Pipeline.arrRef spec1 w) :=
  (B2_arr m ρ c w).symm
theorem kept1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-- After the combine region: the end. -/
def B3 (c : Dev nD) : Valuation τ sig (Elt F) :=
  Pipeline.withArrays spec2 c (B2 m ρ c) fun w => (dat2 (E2 m ρ) c).arrAt w cfg2.N
theorem B3_arr (c : Dev nD) (w : Fin cfg2.W) :
    B3 m ρ c (Proc.devRef .tc (Pipeline.arrRef spec2 w)) = (dat2 (E2 m ρ) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m ρ c (Proc.devRef .tc b) = B2 m ρ c (Proc.devRef .tc b) := by
  unfold B3; exact Pipeline.withArrays_of_ne spec2 c _ _ b hb
abbrev E3 : (c : Dev nD) → (b : Ref sig .tc) → Buf (Elt F) ((c : Thread nD τ).loc b) := fun c b => B3 m ρ c b
theorem left2 (c : Dev nD) (w : Fin cfg2.W) : (dat2 (E2 m ρ) c).arrAt w cfg2.N = E3 m ρ c (Pipeline.arrRef spec2 w) :=
  (B3_arr m ρ c w).symm
theorem kept2 (c : Dev nD) : ∀ b, b ∉ Finset.univ.image (Pipeline.arrRef spec2) → E3 m ρ c b = E2 m ρ c b :=
  fun b hb => B3_of_ne m ρ c b fun w e => hb (Finset.mem_image.mpr ⟨w, Finset.mem_univ _, e⟩)

/-! ## The arguments end as launched -/

/-- The big array: read by the first and third regions through input windows, bypassed by the second. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat2 (E2 m ρ) c).arrAt_in 0 rfl _).trans (dat2_A (E2 m ρ) c 0))
    _ = B1 m ρ c (Proc.devRef .tc main_arg0) := B2_of_ne m ρ c main_arg0 (by decide)
    _ = B0 m ρ c (Proc.devRef .tc main_arg0) := (B1_arr m ρ c 0).trans (((dat0 (E0 m ρ) c).arrAt_in 0 rfl _).trans (dat0_A (E0 m ρ) c 0))
    _ = m ((c : Thread nD τ).loc main_arg0) := rfl

/-- A weight or vector argument: read by the second region through input window `w`, bypassed by the others. -/
theorem B3_gate_arg (c : Dev nD) (w : Fin cfg1.W) (hw : (cfg1.win w).isOut = false) (b : Ref sig .tc) (hb : Pipeline.arrRef spec1 w = b)
    (h2 : ∀ w', Pipeline.arrRef spec2 w' ≠ b) (h0 : ∀ w', Pipeline.arrRef spec0 w' ≠ b) :
    B3 m ρ c (Proc.devRef .tc b) = m ((c : Thread nD τ).loc b) := by
  subst hb
  calc B3 m ρ c (Proc.devRef .tc (Pipeline.arrRef spec1 w))
    _ = B2 m ρ c (Proc.devRef .tc (Pipeline.arrRef spec1 w)) := B3_of_ne m ρ c _ h2
    _ = B1 m ρ c (Proc.devRef .tc (Pipeline.arrRef spec1 w)) := (B2_arr m ρ c w).trans (((dat1 (E1 m ρ) c).arrAt_in w hw _).trans (dat1_A (E1 m ρ) c w))
    _ = B0 m ρ c (Proc.devRef .tc (Pipeline.arrRef spec1 w)) := B1_of_ne m ρ c _ h0
    _ = m ((c : Thread nD τ).loc (Pipeline.arrRef spec1 w)) := rfl

/-! ## The proof data family and the regions' records -/

abbrev tables : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) tables p) c
  | ⟨0, _⟩ => fun c => dat0 (E0 m ρ) c
  | ⟨1, _⟩ => fun c => dat1 (E1 m ρ) c
  | ⟨2, _⟩ => fun c => dat2 (E2 m ρ) c

abbrev noVariants : Variants := Variants.none
abbrev noPairs : GSem nD τ sig → Finset Unit := fun _ => ∅
abbrev noLevel : GSem nD τ sig → Unit → ℕ := fun _ _ => 0
/-- What rides beside the buffers through every region: the generator register at some state, nothing owed. -/
abbrev beside (c : Dev nD) : sProp 𝕄 := iprop((∃ r, prngReg c r) ∗ ∃ W, owes (c : Thread nD τ) (0 : CellTallies nD τ sig Unit) W)
abbrev atEnd (c : Dev nD) : sProp 𝕄 := iprop(StableHlo.held (c : Thread nD τ) (Pipeline.ucRefs τ sig) (B3 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The mean region's record. Its invariant is entered at the resting one and left at it (the accumulator forgotten). -/
def reg0 : Pipeline.RegionSeg (pcfgs (F := F)) tables (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (obligation0 (E0 m ρ) c).loose
  hwaits := Pipeline.hwaits_of_owed_zero _ _ _ _ noPairs noLevel 0 fun _ _ => rfl
  pre c := iprop(StableHlo.held (c : Thread nD τ) (Pipeline.ucRefs τ sig) (B0 m ρ c) ∗ beside c)
  post c := iprop(StableHlo.held (c : Thread nD τ) (Pipeline.ucRefs τ sig) (B1 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    refine (show _ ⊢ Pipeline.ΦA spec0 c from ?_).trans (inv0_in (E0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (E0 m ρ) c).Φ (Fin.last cfg0.N) from rfl]
    refine (inv0_out (E0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region's record. -/
def reg1 : Pipeline.RegionSeg (pcfgs (F := F)) tables (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (obligation1 (E1 m ρ) c).loose
  hwaits := Pipeline.hwaits_of_owed_zero _ _ _ _ noPairs noLevel 1 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine region's record: left at the last boundary, beside the core owing nothing. -/
def reg2 : Pipeline.RegionSeg (pcfgs (F := F)) tables (pdats m ρ) () defs₀ noVariants noPairs noLevel 2 where
  win := launch2.win.to₀
  block_pos := launch2.block_pos
  stage_whole := launch2.stage_whole
  K := PEmpty
  osem k := k.elim
  ho := Pipeline.OwnSemFacts.none _
  hbody c := (obligation2 (E2 m ρ) c).loose
  hwaits := Pipeline.hwaits_of_owed_zero _ _ _ _ noPairs noLevel 2 fun _ _ => rfl
  pre c := iprop(StableHlo.held (c : Thread nD τ) (Pipeline.ucRefs τ sig) (B2 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) tables (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three regions, and the launch -/

abbrev segs : List (Pipeline.Seg (pcfgs (F := F)) tables (pdats m ρ) () defs₀ noVariants noPairs noLevel) :=
  [ .region (reg0 m ρ), .region (reg1 m ρ), .region (reg2 m ρ) ]

theorem main_is_segs (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) tables (pdats m ρ) () cellOf_inj emb₁ defs₀ noVariants noPairs noLevel m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B3_main_arg0 m ρ c),
     (h c _ (mem_uc main_arg1 (by decide))).trans (B3_gate_arg m ρ c 1 rfl main_arg1 rfl (by decide) (by decide)),
     (h c _ (mem_uc main_arg2 (by decide))).trans (B3_gate_arg m ρ c 2 rfl main_arg2 rfl (by decide) (by decide)),
     (h c _ (mem_uc main_arg3 (by decide))).trans (B3_gate_arg m ρ c 3 rfl main_arg3 rfl (by decide) (by decide)),
     (h c _ (mem_uc main_arg4 (by decide))).trans (B3_gate_arg m ρ c 4 rfl main_arg4 rfl (by decide) (by decide)),
     (h c _ (mem_uc main_arg5 (by decide))).trans (B3_gate_arg m ρ c 5 rfl main_arg5 rfl (by decide) (by decide)),
     (h c _ (mem_uc main_arg6 (by decide))).trans (B3_gate_arg m ρ c 6 rfl main_arg6 rfl (by decide) (by decide)),
     (h c _ (mem_uc main_arg7 (by decide))).trans (B3_gate_arg m ρ c 7 rfl main_arg7 rfl (by decide) (by decide)),
     (h c _ (mem_uc main_arg8 (by decide))).trans (B3_gate_arg m ρ c 8 rfl main_arg8 rfl (by decide) (by decide))⟩) (run_all m ρ)

end Cert.Kernel.Fr

end
-- ==== Proof.KernelIdeal.ReduceBase.lean ====
/-
  The first kernel region: the mean over the long axis. Its grid is 2 × 16: the first coordinate picks a half of
  the batch (16 rows), the second walks the long axis in 16 blocks of 512. At each point the body adds the block's
  row sums into a scratch accumulator [16, 512]; at the first point of a sweep it zeroes the accumulator first, at the
  last it stores the accumulator times 2⁻¹³ into the output block. This module holds what the three cases of the body
  (first point of a sweep, a middle point, last point) share: the two conditions in closed form over the grid, where the
  output window is idle, the staging and scratch memrefs, and the region's resting invariant with the accumulator's
  buffer split off the other scoped buffers.
-/
import proofs.«172012_j78245714198911_2_alg».proof.Proof.Gen.KernelIdeal.Launch
import proofs.«172012_j78245714198911_2_alg».proof.Proof.Gen.KernelIdeal.Skeleton
import proofs.«172012_j78245714198911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first condition: the point starts a sweep (second coordinate 0). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body's second condition: the point ends a sweep (second coordinate 15). -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-- The input window is never idle. -/
theorem live0_0 : ∀ t : Fin cfg0.N, cfg0.idle 0 (grid0.coords t) = false := by decide +kernel
/-- Away from a sweep's last point the body stores nothing into the output window, and it is not written back. -/
theorem idle0_1 : ∀ t : Fin cfg0.N, ¬atLast (grid0.coords t) → cfg0.idle 1 (grid0.coords t) = true := by decide +kernel
theorem noFlush0_1 : ∀ t : Fin cfg0.N, ¬atLast (grid0.coords t) → (cfg0.win 1).flush t = false := by decide +kernel
/-- At a sweep's last point the output window is live. -/
theorem live0_1 : ∀ t : Fin cfg0.N, atLast (grid0.coords t) → cfg0.idle 1 (grid0.coords t) = false := by decide +kernel

/-- A staging buffer of the output window, through which its contents are stated. -/
abbrev outV : View sig .tc .vmem S16x512 .f32 := (Memref.whole cc0_stg1_0 : Memref sig .tc .vmem S16x512 .f32).view
/-- The windows' current staging memrefs at point `t`, as the pipeline passes them. -/
abbrev inM (t : Fin cfg0.N) : Memref sig .tc .vmem S16x512x512 .f32 := win0_0.stage (cfg0.slots t 0)
abbrev inM_whole (t : Fin cfg0.N) : (inM t).IsWhole := hstage0_0 ((cfg0.slots t 0).cast nbuf0_0)
abbrev outM (t : Fin cfg0.N) : Memref sig .tc .vmem S16x512 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S16x512 .f32 := Memref.whole cc0_scratch0
abbrev accV : View sig .tc .vmem S16x512 .f32 := accM.view

/-- The scoped buffers that are neither a staging buffer of this region nor the accumulator (the other regions'
    staging buffers), each at some contents: carried through the region unopened. -/
def others0 (c : Dev nD) : sProp 𝕄 :=
  Pipeline.scopedRestBut (Ix := Unit) (Name := ℕ) (U := UR sig nD τ) (Lvl := ℕ) (Val := Elt F) spec0 c [cc0_scratch0]

/-- The region's resting invariant with the accumulator's buffer named: the accumulator at some contents, the other
    scoped buffers, the generator register at some state. -/
theorem rest0_eq (c : Dev nD) :
    (Pipeline.ΦA spec0 c : sProp 𝕄)
      = iprop(((∃ d, owns (c : Thread nD τ) accM fullShare d) ∗ others0 c) ∗ (∃ r, prngReg c r)) := by
  unfold Pipeline.ΦA others0
  rw [Pipeline.scopedRest_split_of_list spec0 c [cc0_scratch0] (by decide) (by decide)]
  simp only [BI.bigSepL_singleton, accM, owns_whole]
  rfl

section Region
variable (V : (c : Dev nD) → (b : Ref sig .tc) → Buf (Elt F) ((c : Thread nD τ).loc b))

/-- Window `w`'s block at point `t`, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

end Region

end Cert.KernelIdeal.Fr

end
-- ==== Proof.KernelIdeal.ReduceFirst.lean ====
/-
  The first kernel region's body run at the first point of a sweep (the accumulator is zeroed, then added to; nothing is stored into the output block): the body's triple on whole staging memrefs, with the pieces it leaves
  in the accumulator (and in the output block, when it stores there) found by running the body.
-/
import proofs.«172012_j78245714198911_2_alg».proof.Proof.KernelIdeal.ReduceBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a sweep's first point: the input block at `x0`, the output buffer at `xi` (handed back untouched), the accumulator
    at anything; the body ends with the accumulator at its pieces `LS` written over what it held. -/
noncomputable def runFirst (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : atFirst i) (hc1 : ¬atLast i)
    (x0 : Vec F S16x512x512 .f32) :
    Σ' (L1 : List (View.Piece (Elt F) S16x512 .f32)), { LS : List (View.Piece (Elt F) S16x512 .f32) //
      ∀ (xi : Vec F S16x512 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨[], ?_, fun xi E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdeal.ReduceMiddle.lean ====
/-
  The first kernel region's body run at a middle point of a sweep (the block's row sums are added to the accumulator; nothing is stored into the output block): the body's triple on whole staging memrefs, with the pieces it leaves
  in the accumulator (and in the output block, when it stores there) found by running the body.
-/
import proofs.«172012_j78245714198911_2_alg».proof.Proof.KernelIdeal.ReduceBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point: the input block at `x0`, the output buffer at `xi` (handed back untouched), the accumulator at
    `xs`, what the point before left; the body ends with the accumulator at its pieces `LS` written. -/
noncomputable def runMiddle (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : ¬atFirst i) (hc1 : ¬atLast i)
    (x0 : Vec F S16x512x512 .f32) (xs : Vec F S16x512 .f32) :
    Σ' (L1 : List (View.Piece (Elt F) S16x512 .f32)), { LS : List (View.Piece (Elt F) S16x512 .f32) //
      ∀ (xi : Vec F S16x512 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨[], ?_, fun xi E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdeal.ReduceLast.lean ====
/-
  The first kernel region's body run at the last point of a sweep (the block's row sums are added to the accumulator, and the accumulator times 2⁻¹³ is stored into the output block): the body's triple on whole staging memrefs, with the pieces it leaves
  in the accumulator (and in the output block, when it stores there) found by running the body.
-/
import proofs.«172012_j78245714198911_2_alg».proof.Proof.KernelIdeal.ReduceBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a sweep's last point: the input block at `x0`, the output buffer at anything, the accumulator at `xs`; the body
    ends with the output buffer at its pieces `L1` written and the accumulator at its pieces `LS` written. -/
noncomputable def runLast (c : Dev nD) (i : grid0.Coords) (arg2 : Memref sig .tc .vmem S16x512x512 .f32) (harg2 : arg2.IsWhole) (arg3 : Memref sig .tc .vmem S16x512 .f32) (harg3 : arg3.IsWhole) (arg4 : Memref sig .tc .vmem S16x512 .f32) (harg4 : arg4.IsWhole) (hc0 : ¬atFirst i) (hc1 : atLast i)
    (x0 : Vec F S16x512x512 .f32) (xs : Vec F S16x512 .f32) :
    Σ' (L1 : List (View.Piece (Elt F) S16x512 .f32)), { LS : List (View.Piece (Elt F) S16x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KernelIdeal.Reduce.lean ====
/-
  The first kernel region, assembled: what the accumulator and the output block hold after each grid point, by
  recursion on the point — at a sweep's first point the body's pieces over the input block alone, at a later point over
  the input block and what the point before left in the accumulator —, the region's invariant (before the first point
  the resting one; afterwards the accumulator at what the point before left, the other scoped buffers and the generator
  register untouched), the proof data and the body obligation at every point.
-/
import proofs.«172012_j78245714198911_2_alg».proof.Proof.KernelIdeal.ReduceFirst
import proofs.«172012_j78245714198911_2_alg».proof.Proof.KernelIdeal.ReduceMiddle
import proofs.«172012_j78245714198911_2_alg».proof.Proof.KernelIdeal.ReduceLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three runs at a grid point, on the memrefs the pipeline passes there. -/
abbrev firstRun (c : Dev nD) (t : Fin cfg0.N) (h0 : t.val % 16 = 0) (x0 : Vec F S16x512x512 .f32) :=
  runFirst (F := F) c (grid0.coords t) (inM t) (inM_whole t) (outM t) (outM_whole t) accM (Memref.isWhole_whole _)
    ((atFirst_iff t).mpr h0) (fun h => by have := (atLast_iff t).mp h; omega) x0
abbrev middleRun (c : Dev nD) (t : Fin cfg0.N) (h0 : ¬t.val % 16 = 0) (h1 : ¬t.val % 16 = 15) (x0 : Vec F S16x512x512 .f32) (xs : Vec F S16x512 .f32) :=
  runMiddle (F := F) c (grid0.coords t) (inM t) (inM_whole t) (outM t) (outM_whole t) accM (Memref.isWhole_whole _)
    (fun h => h0 ((atFirst_iff t).mp h)) (fun h => h1 ((atLast_iff t).mp h)) x0 xs
abbrev lastRun (c : Dev nD) (t : Fin cfg0.N) (h0 : ¬t.val % 16 = 0) (h1 : t.val % 16 = 15) (x0 : Vec F S16x512x512 .f32) (xs : Vec F S16x512 .f32) :=
  runLast (F := F) c (grid0.coords t) (inM t) (inM_whole t) (outM t) (outM_whole t) accM (Memref.isWhole_whole _)
    (fun h => h0 ((atFirst_iff t).mp h)) ((atLast_iff t).mpr h1) x0 xs

/-- What a run's pieces leave in the accumulator / in the output block, read back. -/
def accOf (L : List (View.Piece (Elt F) S16x512 .f32)) : Vec F S16x512 .f32 :=
  accV.read (Elt F) (accV.writes (Elt F) accV.junk L)
def outOf (L : List (View.Piece (Elt F) S16x512 .f32)) : Vec F S16x512 .f32 :=
  outV.read (Elt F) (outV.writes (Elt F) outV.junk L)

/-- Each run's accumulator pieces cover the accumulator; the last run's output pieces cover the output block. -/
theorem firstRun_cover (c : Dev nD) (t : Fin cfg0.N) (h0) (x0 : Vec F S16x512x512 .f32) (y : S16x512.Idx) :
    ∃ pc ∈ (firstRun c t h0 x0).2.1, y ∈ pc.1.set :=
  View.cover_of_tiledL (firstRun c t h0 x0).2.1 S16x512.size (by sl_kernel_rfl) y
theorem middleRun_cover (c : Dev nD) (t : Fin cfg0.N) (h0 h1) (x0 : Vec F S16x512x512 .f32) (xs : Vec F S16x512 .f32) (y : S16x512.Idx) :
    ∃ pc ∈ (middleRun c t h0 h1 x0 xs).2.1, y ∈ pc.1.set :=
  View.cover_of_tiledL (middleRun c t h0 h1 x0 xs).2.1 S16x512.size (by sl_kernel_rfl) y
theorem lastRun_cover (c : Dev nD) (t : Fin cfg0.N) (h0 h1) (x0 : Vec F S16x512x512 .f32) (xs : Vec F S16x512 .f32) (y : S16x512.Idx) :
    ∃ pc ∈ (lastRun c t h0 h1 x0 xs).2.1, y ∈ pc.1.set :=
  View.cover_of_tiledL (lastRun c t h0 h1 x0 xs).2.1 S16x512.size (by sl_kernel_rfl) y
theorem lastRun_outCover (c : Dev nD) (t : Fin cfg0.N) (h0 h1) (x0 : Vec F S16x512x512 .f32) (xs : Vec F S16x512 .f32) (y : S16x512.Idx) :
    ∃ pc ∈ (lastRun c t h0 h1 x0 xs).1, y ∈ pc.1.set :=
  View.cover_of_tiledL (lastRun c t h0 h1 x0 xs).1 S16x512.size (by sl_kernel_rfl) y

section Region
variable (V : (c : Dev nD) → (b : Ref sig .tc) → Buf (Elt F) ((c : Thread nD τ).loc b))

/-- THE ACCUMULATION: what the output block's buffer (first component; a placeholder where the body stores nothing
    there) and the accumulator (second component) hold after the body at position `n`. -/
def leftAt (c : Dev nD) : (n : ℕ) → n < cfg0.N → Vec F S16x512 .f32 × Vec F S16x512 .f32
  | 0, hn => (outOf [], accOf (firstRun c ⟨0, hn⟩ (Nat.zero_mod _) (blk0 V c 0 ⟨0, hn⟩)).2.1)
  | n + 1, hn =>
    if h0 : (n + 1) % 16 = 0 then
      (outOf [], accOf (firstRun c ⟨n + 1, hn⟩ h0 (blk0 V c 0 ⟨n + 1, hn⟩)).2.1)
    else
      if h1 : (n + 1) % 16 = 15 then
        (outOf (lastRun c ⟨n + 1, hn⟩ h0 h1 (blk0 V c 0 ⟨n + 1, hn⟩) (leftAt c n (Nat.lt_of_succ_lt hn)).2).1,
         accOf (lastRun c ⟨n + 1, hn⟩ h0 h1 (blk0 V c 0 ⟨n + 1, hn⟩) (leftAt c n (Nat.lt_of_succ_lt hn)).2).2.1)
      else
        (outOf [], accOf (middleRun c ⟨n + 1, hn⟩ h0 h1 (blk0 V c 0 ⟨n + 1, hn⟩) (leftAt c n (Nat.lt_of_succ_lt hn)).2).2.1)

theorem leftAt_first (c : Dev nD) (t : Fin cfg0.N) (h0 : t.val % 16 = 0) :
    leftAt V c t.val t.isLt = (outOf [], accOf (firstRun c t h0 (blk0 V c 0 t)).2.1) := by
  obtain ⟨n, hn⟩ := t
  cases n with
  | zero => exact rfl
  | succ n => exact (dif_pos h0).trans rfl

theorem leftAt_middle (c : Dev nD) (t : Fin cfg0.N) (h0 : ¬t.val % 16 = 0) (h1 : ¬t.val % 16 = 15) :
    leftAt V c t.val t.isLt = (outOf [], accOf (middleRun c t h0 h1 (blk0 V c 0 t)
      (leftAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg0.N) (h0 : ¬t.val % 16 = 0) (h1 : t.val % 16 = 15) :
    leftAt V c t.val t.isLt = (outOf (lastRun c t h0 h1 (blk0 V c 0 t) (leftAt V c (t.val - 1) (Nat.lt_of_le_of_lt (Nat.sub_le _ _) t.isLt)).2).1,
      accOf (lastRun c t h0 h1 (blk0 V c 0 t) (leftAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def inv0 (c : Dev nD) : (n : ℕ) → n ≤ cfg0.N → sProp 𝕄
  | 0, _ => Pipeline.ΦA spec0 c
  | n + 1, hn => iprop((owns (c : Thread nD τ) accM fullShare ((leftAt V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) accM fullShare ((leftAt V c n hn).2) ∗ others0 c) ∗ (∃ r, prngReg c r)) := rfl
theorem inv0_pos (c : Dev nD) (n : ℕ) (h : n ≤ cfg0.N) (hz : n ≠ 0) :
    inv0 V c n h = iprop((owns (c : Thread nD τ) accM fullShare ((leftAt V c (n - 1) (by omega)).2) ∗ others0 c) ∗ (∃ r, prngReg c r)) := by
  cases n with
  | zero => exact absurd rfl hz
  | succ n => rfl

/-- The region's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAt V c t.val t.isLt).1
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_inv_castSucc (c : Dev nD) (t : Fin cfg0.N) :
    (dat0 V c).Φ t.castSucc = inv0 V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = (leftAt V c t.val t.isLt).1 := by dsimp only [dat0]
theorem dat0_before0 (c : Dev nD) (t : Fin cfg0.N) (d) : (dat0 V c).before 0 t d = blk0 V c 0 t :=
  found0_0 V (dat0 V c) (dat0_A V c 0) (dat0_after0 V c) t d

def pre0 (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which of the three cases the point is in; the invariant hands the body
    the accumulator at what the point before left (at anything before the first point) and takes it back at this
    point's contents; the other scoped buffers, the generator register and the core's dues pass through. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (inM t) fullShare ((dat0 V c).after 0 t) from by
    unfold Dat.leavesExact; rw [live0_0 t], dat0_after0]
  by_cases h0 : t.val % 16 = 0
  · have hnl : ¬atLast (grid0.coords t) := fun h => by have := (atLast_iff t).mp h; omega
    rw [Dat.leavesExact_idle (dat0 V c) 1 t (idle0_1 t hnl) (noFlush0_1 t hnl)]
    rw [leftAt_first V c t h0]
    (try dsimp only)
    by_cases hz : t.val = 0
    · rw [dat0_inv_castSucc V c t, inv0_zero V c _ _ hz, rest0_eq]
      iintro ⟨⟨⟨HS0, Hoth⟩, Hg⟩, Ho, ⟨%d0, H0⟩, ⟨%d1, H1⟩⟩
      iapply ((firstRun c t h0 (blk0 V c 0 t)).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (firstRun_cover c t h0 _)
          iexact Hoth
        iexact Hg
      isplitl [Ho]; · iexact Ho
      isplitl [H0]; · iexact H0
      iexists _; iexact H1
    · rw [dat0_inv_castSucc V c t, inv0_pos V c _ _ hz]
      iintro ⟨⟨⟨HS0, Hoth⟩, Hg⟩, Ho, ⟨%d0, H0⟩, ⟨%d1, H1⟩⟩
      iapply ((firstRun c t h0 (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (firstRun_cover c t h0 _)
          iexact Hoth
        iexact Hg
      isplitl [Ho]; · iexact Ho
      isplitl [H0]; · iexact H0
      iexists _; iexact H1
  · have hz : t.val ≠ 0 := fun h => h0 (by rw [h])
    by_cases h1 : t.val % 16 = 15
    · rw [show (dat0 V c).leavesExact 1 t = owns (c : Thread nD τ) (outM t) fullShare ((dat0 V c).after 1 t) from by
        unfold Dat.leavesExact; rw [live0_1 t ((atLast_iff t).mpr h1)], dat0_after1]
      rw [leftAt_last V c t h0 h1]
      (try dsimp only)
      rw [dat0_inv_castSucc V c t, inv0_pos V c _ _ hz]
      iintro ⟨⟨⟨HS0, Hoth⟩, Hg⟩, Ho, ⟨%d0, H0⟩, ⟨%d1, H1⟩⟩
      iapply ((lastRun c t h0 h1 (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (lastRun_cover c t h0 h1 _ _)
          iexact Hoth
        iexact Hg
      isplitl [Ho]; · iexact Ho
      isplitl [H0]; · iexact H0
      unfold owns; iexists _; isplitr
      swap; · iexact H1
      ipureintro; exact View.read_writes_of_cover _ _ _ _ _ (lastRun_outCover c t h0 h1 _ _)
    · have hnl : ¬atLast (grid0.coords t) := fun h => h1 ((atLast_iff t).mp h)
      rw [Dat.leavesExact_idle (dat0 V c) 1 t (idle0_1 t hnl) (noFlush0_1 t hnl)]
      rw [leftAt_middle V c t h0 h1]
      (try dsimp only)
      rw [dat0_inv_castSucc V c t, inv0_pos V c _ _ hz]
      iintro ⟨⟨⟨HS0, Hoth⟩, Hg⟩, Ho, ⟨%d0, H0⟩, ⟨%d1, H1⟩⟩
      iapply ((middleRun c t h0 h1 (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (middleRun_cover c t h0 h1 _ _)
          iexact Hoth
        iexact Hg
      isplitl [Ho]; · iexact Ho
      isplitl [H0]; · iexact H0
      iexists _; iexact H1

theorem obligation0 (c : Dev nD) : BodyObligation (dat0 (F := F) V c) (defs₀ (F := F)) Variants.none () Set.univ := fun t => by
  rw [bigSep_W0, bigSep_W0]
  exact point0 V c t

/-- Before the first point the invariant is the resting one. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the resting one back: the accumulator's contents are forgotten. -/
theorem inv0_out (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl,
    inv0_pos V c _ _ ht, rest0_eq]
  iintro ⟨⟨HS0, Hoth⟩, Hg⟩
  isplitl [HS0 Hoth]
  · isplitl [HS0]
    · iexists _; iexact HS0
    iexact Hoth
  iexact Hg

end Region

end Cert.KernelIdeal.Fr

end
-- ==== Proof.KernelIdeal.Gate.lean ====
/-
  The second kernel region: the gate. Its grid has one point; the body reads the pooled means [32, 512], the two
  weight matrices and the six vectors whole, computes linear – normalisation – relu – linear – logistic and the product
  with the means, and stores the [32, 512] threshold array. What the output buffer holds after the body is one
  function of the nine input blocks, each of which is its whole array.
-/
import proofs.«172012_j78245714198911_2_alg».proof.Proof.Gen.KernelIdeal.Launch
import proofs.«172012_j78245714198911_2_alg».proof.Proof.Gen.KernelIdeal.Skeleton
import proofs.«172012_j78245714198911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-- Window `w`'s block at point `t`, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at the point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at the point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at the point. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at the point. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block at the point. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block at the point. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's staging buffer holds its block at the point. -/
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7's staging buffer holds its block at the point. -/
theorem found1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- Input window 8's staging buffer holds its block at the point. -/
theorem found1_8 {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

abbrev boxA : Rect S32x512 := Rect.unit (s := S32x512) ![0, 0] S32x512.size inb_S32x512_S32x512_0_0
abbrev boxW : Rect S512x512 := Rect.unit (s := S512x512) ![0, 0] S512x512.size inb_S512x512_S512x512_0_0
abbrev boxV : Rect S512 := Rect.unit (s := S512) ![0] S512.size inb_S512_S512_0

/-- What the body leaves in the output buffer: its one store, of the payload of the nine loads. -/
def res1 (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) : Vec F S32x512 .f32 :=
  View.canon [⟨boxA, k1_pay1 (View.ld x0 boxA) (View.ld x1 boxW) (View.ld x2 boxV) (View.ld x3 boxV) (View.ld x5 boxV) (View.ld x6 boxV) (View.ld x4 boxV) (View.ld x7 boxW) (View.ld x8 boxV)⟩]

theorem covers1 (p0 : Vec F S32x512 .f32) (y : S32x512.Idx) :
    ∃ pc ∈ ([⟨boxA, p0⟩] : List (View.Piece (Elt F) S32x512 .f32)), y ∈ pc.1.set :=
  View.cover_of_tiled [⟨boxA, p0⟩] S32x512.size (by rfl) y

set_option maxHeartbeats 4000000 in
/-- The body's triple: on whole staging memrefs, the inputs' at `x0 … x8` and the output's at anything, it runs to
    the continuation holding the inputs as they were and the output at `res1` of them. -/
theorem body1 (c : Dev nD) (E : Set ℕ) (i : grid1.Coords)
    (arg1 : Memref sig .tc .vmem S32x512 .f32) (harg1 : arg1.IsWhole)
    (arg2 : Memref sig .tc .vmem S512x512 .f32) (harg2 : arg2.IsWhole)
    (arg3 : Memref sig .tc .vmem S512 .f32) (harg3 : arg3.IsWhole)
    (arg4 : Memref sig .tc .vmem S512 .f32) (harg4 : arg4.IsWhole)
    (arg5 : Memref sig .tc .vmem S512 .f32) (harg5 : arg5.IsWhole)
    (arg6 : Memref sig .tc .vmem S512 .f32) (harg6 : arg6.IsWhole)
    (arg7 : Memref sig .tc .vmem S512 .f32) (harg7 : arg7.IsWhole)
    (arg8 : Memref sig .tc .vmem S512x512 .f32) (harg8 : arg8.IsWhole)
    (arg9 : Memref sig .tc .vmem S512 .f32) (harg9 : arg9.IsWhole)
    (arg10 : Memref sig .tc .vmem S32x512 .f32) (harg10 : arg10.IsWhole)
    (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (res1 x0 x1 x2 x3 x4 x5 x6 x7 x8)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10) K := by
  simp only [cc1__gate_kernel_eq_skeleton]; unfold cc1__gate_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers1 _)

/-- The region's proof data: the arrays as found; the inputs' buffers at their blocks, the output's at the body's
    result; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => res1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = blk1 V c 7 t := by dsimp only [dat1]
theorem dat1_after8 (c : Dev nD) (t : Fin cfg1.N) : (dat1 V c).after 8 t = blk1 V c 8 t := by dsimp only [dat1]
theorem dat1_after9 (c : Dev nD) (t : Fin cfg1.N) : (dat1 V c).after 9 t = res1 (blk1 V c 0 t) (blk1 V c 1 t) (blk1 V c 2 t) (blk1 V c 3 t) (blk1 V c 4 t) (blk1 V c 5 t) (blk1 V c 6 t) (blk1 V c 7 t) (blk1 V c 8 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d
theorem dat1_before6 (c : Dev nD) (t : Fin cfg1.N) (d) : (dat1 V c).before 6 t d = blk1 V c 6 t :=
  found1_6 V (dat1 V c) (dat1_A V c 6) (dat1_after6 V c) t d
theorem dat1_before7 (c : Dev nD) (t : Fin cfg1.N) (d) : (dat1 V c).before 7 t d = blk1 V c 7 t :=
  found1_7 V (dat1 V c) (dat1_A V c 7) (dat1_after7 V c) t d
theorem dat1_before8 (c : Dev nD) (t : Fin cfg1.N) (d) : (dat1 V c).before 8 t d = blk1 V c 8 t :=
  found1_8 V (dat1 V c) (dat1_A V c 8) (dat1_after8 V c) t d

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7, dat1_before8]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8, dat1_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body1 c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation1 (c : Dev nD) : BodyObligation (dat1 (F := F) V c) (defs₀ (F := F)) Variants.none () Set.univ := fun t => by
  rw [bigSep_W1, bigSep_W1]
  exact point1 V c t

end Region

end Cert.KernelIdeal.Fr

end
-- ==== Proof.KernelIdeal.Combine.lean ====
/-
  The third kernel region: the soft-threshold combine. At each of its 64 grid points the body reads one block
  [32, 512, 128] of the big array and the whole [32, 512] threshold array, and stores min(|x| − thr, 0) into the
  output block. The body keeps nothing between points, so what each output block holds after the body is one
  function of the two input blocks, and the region's record of obligations is the plain one: the inputs' buffers
  hold their blocks whether fetched at the point or not, the output's buffer holds the body's one store.
-/
import proofs.«172012_j78245714198911_2_alg».proof.Proof.Gen.KernelIdeal.Launch
import proofs.«172012_j78245714198911_2_alg».proof.Proof.Gen.KernelIdeal.Skeleton
import proofs.«172012_j78245714198911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-- Window `w`'s block at point `t`, read off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The big array's current staging buffer holds its block at every point. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The threshold array is fetched once; its staging buffer holds the (whole-array) block at every point. -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

abbrev box2 : Rect S32x512x128 := Rect.unit (s := S32x512x128) ![0, 0, 0] S32x512x128.size inb_S32x512x128_S32x512x128_0_0_0
abbrev box2t : Rect S32x512 := Rect.unit (s := S32x512) ![0, 0] S32x512.size inb_S32x512_S32x512_0_0

/-- What the body leaves in the output block: its one store, of the payload of the two loads. -/
def res2 (x0 : Vec F S32x512x128 .f32) (x1 : Vec F S32x512 .f32) : Vec F S32x512x128 .f32 :=
  View.canon [⟨box2, k2_pay1 (View.ld x0 box2) (View.ld x1 box2t)⟩]

theorem covers2 (p0 : Vec F S32x512x128 .f32) (y : S32x512x128.Idx) :
    ∃ pc ∈ ([⟨box2, p0⟩] : List (View.Piece (Elt F) S32x512x128 .f32)), y ∈ pc.1.set :=
  View.cover_of_tiled [⟨box2, p0⟩] S32x512x128.size (by rfl) y

set_option maxHeartbeats 1000000 in
/-- The body's triple: on whole staging memrefs, the inputs' at `x0`, `x1` and the output's at anything, it runs to
    the continuation holding the inputs as they were and the output at `res2 x0 x1`. -/
theorem body2 (c : Dev nD) (E : Set ℕ) (i : grid2.Coords) (arg1 : Memref sig .tc .vmem S32x512x128 .f32) (harg1 : arg1.IsWhole)
    (arg2 : Memref sig .tc .vmem S32x512 .f32) (harg2 : arg2.IsWhole) (arg3 : Memref sig .tc .vmem S32x512x128 .f32) (harg3 : arg3.IsWhole)
    (x0 : Vec F S32x512x128 .f32) (x1 : Vec F S32x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res2 x0 x1)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- The region's proof data: the arrays as found; the inputs' buffers at their blocks, the output's at the body's
    result; the invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = res2 (blk2 V c 0 t) (blk2 V c 1 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation2 (c : Dev nD) : BodyObligation (dat2 (F := F) V c) (defs₀ (F := F)) Variants.none () Set.univ := fun t => by
  rw [bigSep_W2, bigSep_W2]
  exact point2 V c t

end Region

end Cert.KernelIdeal.Fr

end
-- ==== Proof.KernelIdeal.Run.lean ====
/-
  The whole program: three kernel regions in a row, with nothing between them. The contents of the core's unscoped
  buffers at each boundary are a fold from the launch memory: a region leaves its arrays at what its write-backs
  leave and every other buffer as it found it. Each region is entered from "every unscoped buffer at the boundary's
  contents, the generator register at some state, nothing owed" and left at the same at the next boundary. The run's
  post names every unscoped buffer's final contents; the frame claim and the value of the result are read off it.
-/
import proofs.«172012_j78245714198911_2_alg».proof.Proof.KernelIdeal.Reduce
import proofs.«172012_j78245714198911_2_alg».proof.Proof.KernelIdeal.Gate
import proofs.«172012_j78245714198911_2_alg».proof.Proof.KernelIdeal.Combine

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the mean region: its arrays at what the pipeline leaves, the rest as before. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem left0 (c : Dev nD) (w : Fin cfg0.W) : (dat0 (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the gate region. -/
def B2 (c : Dev nD) : Valuation τ sig (Elt F) :=
  Pipeline.withArrays spec1 c (B1 m ρ c) fun w => (dat1 (E1 m ρ) c).arrAt w cfg1.N
theorem B2_arr (c : Dev nD) (w : Fin cfg1.W) :
    B2 m ρ c (Proc.devRef .tc (Pipeline.arrRef spec1 w)) = (dat1 (E1 m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
abbrev E2 : (c : Dev nD) → (b : Ref sig .tc) → Buf (Elt F) ((c : Thread nD τ).loc b) := fun c b => B2 m ρ c b
theorem left1 (c : Dev nD) (w : Fin cfg1.W) : (dat1 (E1 m ρ) c).arrAt w cfg1.N = E2 m ρ c (Pipeline.arrRef spec1 w) :=
  (B2_arr m ρ c w).symm
theorem kept1 (c : Dev nD) : ∀ b, b ∉ Finset.univ.image (Pipeline.arrRef spec1) → E2 m ρ c b = E1 m ρ c b :=
  fun b hb => B2_of_ne m ρ c b fun w e => hb (Finset.mem_image.mpr ⟨w, Finset.mem_univ _, e⟩)

/-- After the combine region: the end. -/
def B3 (c : Dev nD) : Valuation τ sig (Elt F) :=
  Pipeline.withArrays spec2 c (B2 m ρ c) fun w => (dat2 (E2 m ρ) c).arrAt w cfg2.N
theorem B3_arr (c : Dev nD) (w : Fin cfg2.W) :
    B3 m ρ c (Proc.devRef .tc (Pipeline.arrRef spec2 w)) = (dat2 (E2 m ρ) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m ρ c (Proc.devRef .tc b) = B2 m ρ c (Proc.devRef .tc b) := by
  unfold B3; exact Pipeline.withArrays_of_ne spec2 c _ _ b hb
abbrev E3 : (c : Dev nD) → (b : Ref sig .tc) → Buf (Elt F) ((c : Thread nD τ).loc b) := fun c b => B3 m ρ c b
theorem left2 (c : Dev nD) (w : Fin cfg2.W) : (dat2 (E2 m ρ) c).arrAt w cfg2.N = E3 m ρ c (Pipeline.arrRef spec2 w) :=
  (B3_arr m ρ c w).symm
theorem kept2 (c : Dev nD) : ∀ b, b ∉ Finset.univ.image (Pipeline.arrRef spec2) → E3 m ρ c b = E2 m ρ c b :=
  fun b hb => B3_of_ne m ρ c b fun w e => hb (Finset.mem_image.mpr ⟨w, Finset.mem_univ _, e⟩)

/-! ## The arguments end as launched -/

/-- The big array: read by the first and third regions through input windows, bypassed by the second. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat2 (E2 m ρ) c).arrAt_in 0 rfl _).trans (dat2_A (E2 m ρ) c 0))
    _ = B1 m ρ c (Proc.devRef .tc main_arg0) := B2_of_ne m ρ c main_arg0 (by decide)
    _ = B0 m ρ c (Proc.devRef .tc main_arg0) := (B1_arr m ρ c 0).trans (((dat0 (E0 m ρ) c).arrAt_in 0 rfl _).trans (dat0_A (E0 m ρ) c 0))
    _ = m ((c : Thread nD τ).loc main_arg0) := rfl

/-- A weight or vector argument: read by the second region through input window `w`, bypassed by the others. -/
theorem B3_gate_arg (c : Dev nD) (w : Fin cfg1.W) (hw : (cfg1.win w).isOut = false) (b : Ref sig .tc) (hb : Pipeline.arrRef spec1 w = b)
    (h2 : ∀ w', Pipeline.arrRef spec2 w' ≠ b) (h0 : ∀ w', Pipeline.arrRef spec0 w' ≠ b) :
    B3 m ρ c (Proc.devRef .tc b) = m ((c : Thread nD τ).loc b) := by
  subst hb
  calc B3 m ρ c (Proc.devRef .tc (Pipeline.arrRef spec1 w))
    _ = B2 m ρ c (Proc.devRef .tc (Pipeline.arrRef spec1 w)) := B3_of_ne m ρ c _ h2
    _ = B1 m ρ c (Proc.devRef .tc (Pipeline.arrRef spec1 w)) := (B2_arr m ρ c w).trans (((dat1 (E1 m ρ) c).arrAt_in w hw _).trans (dat1_A (E1 m ρ) c w))
    _ = B0 m ρ c (Proc.devRef .tc (Pipeline.arrRef spec1 w)) := B1_of_ne m ρ c _ h0
    _ = m ((c : Thread nD τ).loc (Pipeline.arrRef spec1 w)) := rfl

/-! ## The proof data family and the regions' records -/

abbrev tables : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) tables p) c
  | ⟨0, _⟩ => fun c => dat0 (E0 m ρ) c
  | ⟨1, _⟩ => fun c => dat1 (E1 m ρ) c
  | ⟨2, _⟩ => fun c => dat2 (E2 m ρ) c

abbrev noVariants : Variants := Variants.none
abbrev noPairs : GSem nD τ sig → Finset Unit := fun _ => ∅
abbrev noLevel : GSem nD τ sig → Unit → ℕ := fun _ _ => 0
/-- What rides beside the buffers through every region: the generator register at some state, nothing owed. -/
abbrev beside (c : Dev nD) : sProp 𝕄 := iprop((∃ r, prngReg c r) ∗ ∃ W, owes (c : Thread nD τ) (0 : CellTallies nD τ sig Unit) W)
abbrev atEnd (c : Dev nD) : sProp 𝕄 := iprop(StableHlo.held (c : Thread nD τ) (Pipeline.ucRefs τ sig) (B3 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The mean region's record. Its invariant is entered at the resting one and left at it (the accumulator forgotten). -/
def reg0 : Pipeline.RegionSeg (pcfgs (F := F)) tables (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (obligation0 (E0 m ρ) c).loose
  hwaits := Pipeline.hwaits_of_owed_zero _ _ _ _ noPairs noLevel 0 fun _ _ => rfl
  pre c := iprop(StableHlo.held (c : Thread nD τ) (Pipeline.ucRefs τ sig) (B0 m ρ c) ∗ beside c)
  post c := iprop(StableHlo.held (c : Thread nD τ) (Pipeline.ucRefs τ sig) (B1 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    refine (show _ ⊢ Pipeline.ΦA spec0 c from ?_).trans (inv0_in (E0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (E0 m ρ) c).Φ (Fin.last cfg0.N) from rfl]
    refine (inv0_out (E0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region's record. -/
def reg1 : Pipeline.RegionSeg (pcfgs (F := F)) tables (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (obligation1 (E1 m ρ) c).loose
  hwaits := Pipeline.hwaits_of_owed_zero _ _ _ _ noPairs noLevel 1 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine region's record: left at the last boundary, beside the core owing nothing. -/
def reg2 : Pipeline.RegionSeg (pcfgs (F := F)) tables (pdats m ρ) () defs₀ noVariants noPairs noLevel 2 where
  win := launch2.win.to₀
  block_pos := launch2.block_pos
  stage_whole := launch2.stage_whole
  K := PEmpty
  osem k := k.elim
  ho := Pipeline.OwnSemFacts.none _
  hbody c := (obligation2 (E2 m ρ) c).loose
  hwaits := Pipeline.hwaits_of_owed_zero _ _ _ _ noPairs noLevel 2 fun _ _ => rfl
  pre c := iprop(StableHlo.held (c : Thread nD τ) (Pipeline.ucRefs τ sig) (B2 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) tables (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three regions, and the launch -/

abbrev segs : List (Pipeline.Seg (pcfgs (F := F)) tables (pdats m ρ) () defs₀ noVariants noPairs noLevel) :=
  [ .region (reg0 m ρ), .region (reg1 m ρ), .region (reg2 m ρ) ]

theorem main_is_segs (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) tables (pdats m ρ) () cellOf_inj emb₁ defs₀ noVariants noPairs noLevel m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B3_main_arg0 m ρ c),
     (h c _ (mem_uc main_arg1 (by decide))).trans (B3_gate_arg m ρ c 1 rfl main_arg1 rfl (by decide) (by decide)),
     (h c _ (mem_uc main_arg2 (by decide))).trans (B3_gate_arg m ρ c 2 rfl main_arg2 rfl (by decide) (by decide)),
     (h c _ (mem_uc main_arg3 (by decide))).trans (B3_gate_arg m ρ c 3 rfl main_arg3 rfl (by decide) (by decide)),
     (h c _ (mem_uc main_arg4 (by decide))).trans (B3_gate_arg m ρ c 4 rfl main_arg4 rfl (by decide) (by decide)),
     (h c _ (mem_uc main_arg5 (by decide))).trans (B3_gate_arg m ρ c 5 rfl main_arg5 rfl (by decide) (by decide)),
     (h c _ (mem_uc main_arg6 (by decide))).trans (B3_gate_arg m ρ c 6 rfl main_arg6 rfl (by decide) (by decide)),
     (h c _ (mem_uc main_arg7 (by decide))).trans (B3_gate_arg m ρ c 7 rfl main_arg7 rfl (by decide) (by decide)),
     (h c _ (mem_uc main_arg8 (by decide))).trans (B3_gate_arg m ρ c 8 rfl main_arg8 rfl (by decide) (by decide))⟩) (run_all m ρ)

end Cert.KernelIdeal.Fr

end
-- ==== Proof.ReducePieces.lean ====
/-
  What the mean region's body leaves, case by case, as the body's named arithmetic: after a sweep's first point the
  accumulator holds the block's row sums added to zero; after a later point, the row sums added to what it held; at a
  sweep's last point the output block holds that sum times the kernel's constant 2⁻¹³.
-/
import proofs.«172012_j78245714198911_2_alg».proof.Proof.KernelIdeal.Reduce
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The accumulator's whole buffer read back at the contents it is owned at. -/
theorem acc_read (xs : Vec F S16x512 .f32) (h : (accM : Memref sig .tc .vmem S16x512 .f32).IsWhole) :
    View.read (Elt F) (View.whole cc0_scratch0) (h.unread xs) = xs := h.read_unread xs

/-- After a sweep's first point the accumulator holds the body's sum payload of the zero splat and the input block. -/
theorem acc_first (c : Dev nD) (t : Fin cfg0.N) (h0) (x0 : Vec F S16x512x512 .f32) :
    accOf (firstRun (F := F) c t h0 x0).2.1 = k0_pay2 k0_pay1 x0 := by
  unfold accOf
  rw [View.read_writes_eq_canon _ _ _ (firstRun_cover c t h0 x0)]
  unfold firstRun runFirst
  dsimp only
  sl_unfold_words
  rw [View.canon_cons_unit_zero zeros2, View.readCov_unit_zero _ zeros2]
  simp only [View.readAt_eq_ld, Memref.IsWhole.read_unread, View.ld_unit_zero (S := S16x512x512) zeros3]

/-- After a later point that does not end the sweep: the sum payload of what the accumulator held and the input block. -/
theorem acc_middle (c : Dev nD) (t : Fin cfg0.N) (h0 h1) (x0 : Vec F S16x512x512 .f32) (xs : Vec F S16x512 .f32) :
    accOf (middleRun (F := F) c t h0 h1 x0 xs).2.1 = k0_pay2 xs x0 := by
  unfold accOf
  rw [View.read_writes_eq_canon _ _ _ (middleRun_cover c t h0 h1 x0 xs)]
  unfold middleRun runMiddle
  dsimp only
  sl_unfold_words
  rw [View.canon_unit_zero zeros2]
  simp only [View.readAt_eq_ld, Memref.IsWhole.read_unread, View.ld_unit_zero (S := S16x512x512) zeros3,
    View.ld_unit_zero (S := S16x512) zeros2, acc_read]

/-- At a sweep's last point the accumulator is added to in the same way. -/
theorem acc_last (c : Dev nD) (t : Fin cfg0.N) (h0 h1) (x0 : Vec F S16x512x512 .f32) (xs : Vec F S16x512 .f32) :
    accOf (lastRun (F := F) c t h0 h1 x0 xs).2.1 = k0_pay2 xs x0 := by
  unfold accOf
  rw [View.read_writes_eq_canon _ _ _ (lastRun_cover c t h0 h1 x0 xs)]
  unfold lastRun runLast
  dsimp only
  sl_unfold_words
  rw [View.canon_unit_zero zeros2]
  simp only [View.readAt_eq_ld, Memref.IsWhole.read_unread, View.ld_unit_zero (S := S16x512x512) zeros3,
    View.ld_unit_zero (S := S16x512) zeros2, acc_read]

/-- At a sweep's last point the output block holds the scaling payload of that same sum. -/
theorem out_last (c : Dev nD) (t : Fin cfg0.N) (h0 h1) (x0 : Vec F S16x512x512 .f32) (xs : Vec F S16x512 .f32) :
    outOf (lastRun (F := F) c t h0 h1 x0 xs).1 = k0_pay3 (k0_pay2 xs x0) := by
  unfold outOf
  rw [View.read_writes_eq_canon _ _ _ (lastRun_outCover c t h0 h1 x0 xs)]
  unfold lastRun runLast
  dsimp only
  sl_unfold_words
  rw [View.canon_unit_zero zeros2, View.readCov_unit_zero _ zeros2]
  simp only [View.readAt_eq_ld, Memref.IsWhole.read_unread, View.ld_unit_zero (S := S16x512x512) zeros3,
    View.ld_unit_zero (S := S16x512) zeros2, acc_read]

end Cert.KernelIdeal.Fr

end
-- ==== Proof.LibBlockSum.lean ====
/-
  General lemmas on finite sums in a commutative monoid: a sum over `A * B` consecutive naturals regrouped as `A`
  consecutive blocks of `B`; a sum over the indices of a rank-one shape as a sum over `Fin n`; and a running sum
  that restarts every `P` steps, in closed form. None mentions a program.
-/
import Idealize.ShloMosaic.Lib.ValueIdx

noncomputable section

namespace Cert.BlockSum

open Idealize.ShloMosaic Idealize.ShloMosaic.ValueIdx

variable {M : Type*} [AddCommMonoid M]

/-- `A` consecutive blocks of `B` terms: the sum over all `A * B` of them. -/
theorem sum_blocks (A B : ℕ) (f : ℕ → M) :
    ∑ t ∈ Finset.range A, ∑ q ∈ Finset.range B, f (B * t + q) = ∑ r ∈ Finset.range (A * B), f r := by
  induction A with
  | zero => simp
  | succ A ih =>
    rw [Finset.sum_range_succ, ih, Nat.succ_mul, Finset.sum_range_add, Nat.mul_comm B A]

/-- The indices of a rank-one shape `[n]` are the numbers below `n`. -/
def ix1Equiv (n : ℕ) : Fin n ≃ (⟨1, ![n]⟩ : Shape).Idx where
  toFun := ix1
  invFun j := ⟨(j 0).val, (j 0).isLt⟩
  left_inv _ := rfl
  right_inv j := (eq_ix1 j).symm

/-- A sum over the indices of `[n]` is the sum over `Fin n` of the entries at `ix1`. -/
theorem sum_idx1 {n : ℕ} (f : (⟨1, ![n]⟩ : Shape).Idx → M) : ∑ j, f j = ∑ r : Fin n, f (ix1 r) :=
  (Fintype.sum_equiv (ix1Equiv n) (fun r => f (ix1 r)) f fun _ => rfl).symm

/-- A running sum restarted every `P` steps: at a multiple of `P` it restarts at that step's term, elsewhere it is the
    running sum before plus the step's term. -/
def runSum (P : ℕ) (f : ℕ → M) : ℕ → M
  | 0 => f 0
  | n + 1 => if (n + 1) % P = 0 then f (n + 1) else runSum P f n + f (n + 1)

theorem runSum_zero (P : ℕ) (f : ℕ → M) : runSum P f 0 = f 0 := rfl

theorem runSum_restart (P : ℕ) (f : ℕ → M) (n : ℕ) (h : (n + 1) % P = 0) : runSum P f (n + 1) = f (n + 1) := by
  rw [runSum, if_pos h]

theorem runSum_step (P : ℕ) (f : ℕ → M) (n : ℕ) (h : ¬(n + 1) % P = 0) :
    runSum P f (n + 1) = runSum P f n + f (n + 1) := by
  rw [runSum, if_neg h]

/-- Within period `k`, after `j + 1` steps: the sum of the period's first `j + 1` terms. -/
theorem runSum_period (P : ℕ) (f : ℕ → M) (k j : ℕ) (hj : j < P) :
    runSum P f (P * k + j) = ∑ q ∈ Finset.range (j + 1), f (P * k + q) := by
  induction j with
  | zero =>
    rw [Finset.sum_range_one, Nat.add_zero]
    cases hk : P * k with
    | zero => rfl
    | succ n' =>
      exact runSum_restart P f n' (by rw [← hk]; exact Nat.mul_mod_right P k)
  | succ j ih =>
    have hm : ¬(P * k + j + 1) % P = 0 := by
      rw [Nat.add_assoc, Nat.mul_add_mod, Nat.mod_eq_of_lt hj]; exact Nat.succ_ne_zero j
    rw [show P * k + (j + 1) = (P * k + j) + 1 from rfl, runSum_step P f _ hm, ih (Nat.lt_of_succ_lt hj),
      Finset.sum_range_succ (fun q => f (P * k + q)) (j + 1)]
    rfl

end Cert.BlockSum

end
-- ==== Proof.MeanSpec.lean ====
/-
  The two whole-array functions of this computation — the mean over the long axis and the soft threshold — and the
  mean as sums over natural numbers. The kernel adds the long axis up in 16 blocks of 512 with a
  running sum that restarts at the start of each sweep; the reference adds all 8192 entries at once. Both are sums
  of the same entries: a block's row sum is the sum over `512 * j + l`, and 16 consecutive blocks of 512 are
  the 8192 consecutive entries.
-/
import proofs.«172012_j78245714198911_2_alg».proof.Proof.LibBlockSum
import Idealize.ShloMosaic.Lib.ValueIdx
import Idealize.ShloMosaic.PureOps.Ideal

noncomputable section

namespace Cert.MeanSpec

open Idealize.ShloMosaic Idealize.ShloMosaic.ValueIdx Cert.BlockSum

/-- The entry of a rank-three array at natural coordinates (zero outside the array). -/
def at3 {A B R : ℕ} (X : (⟨3, ![A, B, R]⟩ : Shape).Idx → EReal) (a b r : ℕ) : EReal :=
  if h : a < A ∧ b < B ∧ r < R then X (ix3 ⟨a, h.1⟩ ⟨b, h.2.1⟩ ⟨r, h.2.2⟩) else 0

/-- An entry read at an index is the entry at the index's coordinates. -/
theorem at3_eq {A B R : ℕ} (X : (⟨3, ![A, B, R]⟩ : Shape).Idx → EReal) (i : (⟨3, ![A, B, R]⟩ : Shape).Idx) (a b r : ℕ)
    (ha : (i 0).val = a) (hb : (i 1).val = b) (hr : (i 2).val = r) : X i = at3 X a b r := by
  subst ha hb hr
  have h : (i 0).val < A ∧ (i 1).val < B ∧ (i 2).val < R := ⟨(i 0).isLt, (i 1).isLt, (i 2).isLt⟩
  rw [at3, dif_pos h]
  exact congrArg X (eq_ix3 i)

/-- Row `(a, b)`'s total over the long axis. -/
def rowTotal {A B : ℕ} (X : (⟨3, ![A, B, 8192]⟩ : Shape).Idx → EReal) (a b : ℕ) : EReal :=
  ∑ r ∈ Finset.range 8192, at3 X a b r

/-- What grid point `n` of the sweep adds to accumulator entry `(p, q)`: the sum over block `n % 16` (512 wide) of row
    `(16 * (n / 16) + p, q)`. -/
def stepTerm {A B : ℕ} (X : (⟨3, ![A, B, 8192]⟩ : Shape).Idx → EReal) (p q n : ℕ) : EReal :=
  ∑ l ∈ Finset.range 512, at3 X (16 * (n / 16) + p) q (512 * (n % 16) + l)

/-- A sum over `Fin 512` of block entries is the step's term. -/
theorem sum_block_eq {A B : ℕ} (X : (⟨3, ![A, B, 8192]⟩ : Shape).Idx → EReal) (p q n : ℕ) (f : Fin 512 → EReal)
    (hf : ∀ l : Fin 512, f l = at3 X (16 * (n / 16) + p) q (512 * (n % 16) + l.val)) :
    ∑ l : Fin 512, f l = stepTerm X p q n := by
  unfold stepTerm
  rw [Finset.sum_range (fun l => at3 X (16 * (n / 16) + p) q (512 * (n % 16) + l))]
  exact Finset.sum_congr rfl fun l _ => hf l

/-- At the end of sweep `k` the restarting running sum of the steps' terms is the row's total. -/
theorem runSum_sweep_end {A B : ℕ} (X : (⟨3, ![A, B, 8192]⟩ : Shape).Idx → EReal) (p q k : ℕ) :
    runSum 16 (stepTerm X p q) (16 * k + 15) = rowTotal X (16 * k + p) q := by
  rw [runSum_period 16 _ k 15 (by norm_num)]
  unfold rowTotal
  show ∑ j ∈ Finset.range 16, stepTerm X p q (16 * k + j) = ∑ r ∈ Finset.range (16 * 512), at3 X (16 * k + p) q r
  rw [← sum_blocks 16 512 (fun r => at3 X (16 * k + p) q r)]
  refine Finset.sum_congr rfl fun j hj => ?_
  have hj' : j < 16 := Finset.mem_range.mp hj
  unfold stepTerm
  rw [show (16 * k + j) / 16 = k by omega, show (16 * k + j) % 16 = j by omega]

/-- The reference's sum over the long axis is the row's total. -/
theorem sum_fin_eq_rowTotal {A B : ℕ} (X : (⟨3, ![A, B, 8192]⟩ : Shape).Idx → EReal) (a b : ℕ)
    (idx : Fin 8192 → (⟨3, ![A, B, 8192]⟩ : Shape).Idx)
    (h : ∀ k : Fin 8192, (idx k 0).val = a ∧ (idx k 1).val = b ∧ (idx k 2).val = k.val) :
    ∑ k : Fin 8192, X (idx k) = rowTotal X a b := by
  unfold rowTotal
  rw [Finset.sum_range (fun r => at3 X a b r)]
  exact Finset.sum_congr rfl fun k _ => at3_eq X (idx k) a b k.val (h k).1 (h k).2.1 (h k).2.2

/-- THE MEAN over the long axis as one function: the row's total times 2⁻¹³. -/
def mean {A B : ℕ} (X : (⟨3, ![A, B, 8192]⟩ : Shape).Idx → EReal) : (⟨2, ![A, B]⟩ : Shape).Idx → EReal :=
  fun i => rowTotal X (i 0).val (i 1).val * (((1 : ℝ) / 8192 : ℝ) : EReal)

/-- THE SOFT THRESHOLD as one function: min(|x| − t, 0) with `t` the threshold of the entry's first two coordinates. -/
def soft {A B R : ℕ} (X : (⟨3, ![A, B, R]⟩ : Shape).Idx → EReal) (T : (⟨2, ![A, B]⟩ : Shape).Idx → EReal) :
    (⟨3, ![A, B, R]⟩ : Shape).Idx → EReal :=
  fun i => min (max (X i) (-(X i)) - T (ix2 (n0 := A) (n1 := B) ⟨(i 0).val, (i 0).isLt⟩ ⟨(i 1).val, (i 1).isLt⟩)) 0

/-- Dividing by 8192 is multiplying by its reciprocal, on every extended real. -/
theorem div_8192 (x : EReal) : Ideal.div x ((8192 : ℝ) : EReal) = x * (((1 : ℝ) / 8192 : ℝ) : EReal) :=
  Ideal.div_coe (by norm_num) x

end Cert.MeanSpec

end
-- ==== Proof.Consts.lean ====
/-
  The float constants the two programs spell, as the extended reals their patterns denote: the reference's divisor
  8192, the kernel's factor 2⁻¹³, and one.
-/
import Idealize.ShloMosaic.PureOps.Ideal

noncomputable section

namespace Cert.Consts

open Idealize.ShloMosaic

/-- The pattern 0x46000000 is 2¹³ = 8192. -/
theorem ofBits_8192 : Ideal.ofBits .f32 0x46000000#32 = ((8192 : ℝ) : EReal) := by
  simp [Ideal.ofBits, Ideal.ieee, -EReal.coe_mul]; norm_num

/-- The pattern 0x39000000 is 2⁻¹³ = 1/8192, exactly. -/
theorem ofBits_inv8192 : Ideal.ofBits .f32 0x39000000#32 = (((1 : ℝ) / 8192 : ℝ) : EReal) := by
  simp [Ideal.ofBits, Ideal.ieee, -EReal.coe_mul]; norm_num

/-- The pattern 0x3F800000 is one. -/
theorem ofBits_one : Ideal.ofBits .f32 0x3F800000#32 = 1 := by
  simp [Ideal.ofBits, Ideal.ieee, -EReal.coe_mul]; norm_num

end Cert.Consts

end
-- ==== Proof.ReduceValue.lean ====
/-
  The mean region's result at the extended reals. The accumulator entry `(p, q)` after grid point `n` is the running
  sum, restarted at each sweep's first point, of the row sums of the blocks met so far; at a sweep's last point that is
  the whole row's total, and the output block stores it times 2⁻¹³. The two written-back blocks (one per sweep) cover the
  [32, 512] array, so the array the region leaves is, entry by entry, the row's total times 2⁻¹³.
-/
import proofs.«172012_j78245714198911_2_alg».proof.Proof.ReducePieces
import proofs.«172012_j78245714198911_2_alg».proof.Proof.MeanSpec
import proofs.«172012_j78245714198911_2_alg».proof.Proof.Consts
import Idealize.ShloMosaic.Lib.ValueIdx
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.MeanSpec Cert.BlockSum

/-- The vector unit's sum along the last axis of a [16, 512, 512] block, read at `(p, q)`: the sum of that row. -/
theorem laneSum_apply (v : FVec Ideal S16x512x512 .f32) (h : S16x512x512.Reduces [(2 : Fin 3)] S16x512) (hφ : FKind.Formats FTy.f32)
    (hacc : (0x00000000#32 : BitVec 32) = 0x00000000#32) (p : Fin 16) (q : Fin 512) :
    multiReduction .add [(2 : Fin 3)] S16x512 v 0x00000000#32 h hφ hacc (ix2 p q) = ∑ l : Fin 512, v (ix3 p q l) :=
  (Ideal.multiReduction_add_single v 0x00000000#32 h hφ hacc (ix2 p q)).trans
    (Finset.sum_congr rfl fun k _ => congrArg v (funext fun a => Fin.ext (by
      match a with
      | ⟨0, _⟩ => rfl
      | ⟨1, _⟩ => rfl
      | ⟨2, _⟩ => rfl)))

/-- The zero splat. -/
theorem zeroPay_apply (j : S16x512.Idx) : k0_pay1 (F := Ideal) j = 0 := by
  unfold k0_pay1
  show shapeCast S16x512 (broadcast S16x512 (Scalar.ofBits (F := Ideal) .f32 0x00000000#32)) shapeCasts_S16x512_S16x512 j = 0
  rw [shapeCast_self]
  exact Ideal.ofBits_zero_f32

/-- The accumulating payload at an entry: what the accumulator held plus the block's row sum. -/
theorem sumPay_apply (xs : FVec Ideal S16x512 .f32) (x0 : FVec Ideal S16x512x512 .f32) (p : Fin 16) (q : Fin 512) :
    k0_pay2 (F := Ideal) xs x0 (ix2 p q) = xs (ix2 p q) + ∑ l : Fin 512, x0 (ix3 p q l) := by
  unfold k0_pay2
  dsimp only
  rw [shapeCast_self]
  exact congrArg (xs (ix2 p q) + ·) (laneSum_apply x0 _ _ _ p q)

/-- The scaling payload at an entry: the accumulator's entry times 2⁻¹³. -/
theorem scalePay_apply (v : FVec Ideal S16x512 .f32) (j : S16x512.Idx) :
    k0_pay3 (F := Ideal) v j = v j * (((1 : ℝ) / 8192 : ℝ) : EReal) := by
  unfold k0_pay3
  show v j * Ideal.ofBits .f32 0x39000000#32 = _
  rw [Cert.Consts.ofBits_inv8192]

/-- The windows' block indices over the grid: point `t` is sweep `t / 16`, block `t % 16` of the long axis. -/
theorem in_index : ∀ t : Fin cfg0.N, win0_0.index t (0 : Fin 3) = t.val / 16 ∧ win0_0.index t (1 : Fin 3) = 0
    ∧ win0_0.index t (2 : Fin 3) = t.val % 16 :=
  (by decide +kernel : ∀ t : Fin grid0.N, win0_0.index t (0 : Fin 3) = t.val / 16 ∧ win0_0.index t (1 : Fin 3) = 0
    ∧ win0_0.index t (2 : Fin 3) = t.val % 16)
theorem out_index : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)

section Region
variable (V : (c : Dev nD) → (b : Ref sig .tc) → Buf (Elt Ideal) ((c : Thread nD τ).loc b))

/-- An entry of the input block at point `t` is the array's entry in rows `16 (t / 16) + p`, at `512 (t % 16) + l` of the long axis. -/
theorem blk0_apply (c : Dev nD) (t : Fin cfg0.N) (p : Fin 16) (q : Fin 512) (l : Fin 512) :
    blk0 V c 0 t (ix3 p q l) = at3 (V c main_arg0) (16 * (t.val / 16) + p.val) q.val (512 * (t.val % 16) + l.val) := by
  obtain ⟨e0, e1, e2⟩ := in_index t
  show V c main_arg0 (((cfg0.win 0).blk t).view.emb (ix3 p q l)) = _
  refine at3_eq _ _ _ _ _ ?_ ?_ ?_
  · show win0_0.index t (0 : Fin 3) * 16 + 1 * p.val = _; omega
  · show win0_0.index t (1 : Fin 3) * 512 + 1 * q.val = _; omega
  · show win0_0.index t (2 : Fin 3) * 512 + 1 * l.val = _; omega

/-- The input block at point `t`, as a [16, 512, 512] array of extended reals. -/
abbrev inBlock (c : Dev nD) (t : Fin cfg0.N) : FVec Ideal S16x512x512 .f32 := blk0 V c 0 t

/-- The block's row sum at point `t` is the step's term. -/
theorem blockRow_eq (c : Dev nD) (t : Fin cfg0.N) (p : Fin 16) (q : Fin 512) :
    ∑ l : Fin 512, inBlock V c t (ix3 p q l) = stepTerm (V c main_arg0) p.val q.val t.val :=
  sum_block_eq _ _ _ _ _ fun l => blk0_apply V c t p q l

/-- A position below 32 is a grid point. -/
theorem lt_N {n : ℕ} (h : n < 32) : n < cfg0.N := lt_of_lt_of_eq h N_0.symm

set_option maxHeartbeats 1000000 in
/-- After a sweep's first point the accumulator's entry is the step's term. -/
theorem acc_at_first (c : Dev nD) (t : Fin cfg0.N) (h0 : t.val % 16 = 0) (p : Fin 16) (q : Fin 512) :
    (leftAt V c t.val t.isLt).2 (ix2 p q) = stepTerm (V c main_arg0) p.val q.val t.val := by
  rw [leftAt_first V c t h0]
  show accOf (firstRun c t h0 (blk0 V c 0 t)).2.1 (ix2 p q) = _
  rw [acc_first c t h0 (blk0 V c 0 t), sumPay_apply, zeroPay_apply, zero_add]
  exact blockRow_eq V c t p q

set_option maxHeartbeats 1000000 in
/-- After a later point it is what the point before left plus the step's term. -/
theorem acc_at_later (c : Dev nD) (t : Fin cfg0.N) (h0 : ¬t.val % 16 = 0) (p : Fin 16) (q : Fin 512) :
    (leftAt V c t.val t.isLt).2 (ix2 p q)
      = (leftAt V c (t.val - 1) (Nat.lt_of_le_of_lt (Nat.sub_le _ _) t.isLt)).2 (ix2 p q) + stepTerm (V c main_arg0) p.val q.val t.val := by
  by_cases h1 : t.val % 16 = 15
  · rw [leftAt_last V c t h0 h1]
    show accOf (lastRun c t h0 h1 (blk0 V c 0 t) (leftAt V c (t.val - 1) _).2).2.1 (ix2 p q) = _
    rw [acc_last c t h0 h1 (blk0 V c 0 t) _, sumPay_apply, blockRow_eq V c t p q]
  · rw [leftAt_middle V c t h0 h1]
    show accOf (middleRun c t h0 h1 (blk0 V c 0 t) (leftAt V c (t.val - 1) _).2).2.1 (ix2 p q) = _
    rw [acc_middle c t h0 h1 (blk0 V c 0 t) _, sumPay_apply, blockRow_eq V c t p q]

/-- THE ACCUMULATOR after every grid point: the restarting running sum of the steps' terms. -/
theorem acc_eq (c : Dev nD) : ∀ (n : ℕ) (hn : n < cfg0.N) (p : Fin 16) (q : Fin 512),
    (leftAt V c n hn).2 (ix2 p q) = runSum 16 (stepTerm (V c main_arg0) p.val q.val) n := by
  intro n
  induction n with
  | zero =>
    intro hn p q
    rw [runSum_zero]
    exact acc_at_first V c ⟨0, hn⟩ (Nat.zero_mod 16) p q
  | succ n ih =>
    intro hn p q
    by_cases h0 : (n + 1) % 16 = 0
    · rw [runSum_restart 16 _ n h0]
      exact acc_at_first V c ⟨n + 1, hn⟩ h0 p q
    · rw [runSum_step 16 _ n h0, ← ih (Nat.lt_of_succ_lt hn) p q]
      exact acc_at_later V c ⟨n + 1, hn⟩ h0 p q

/-- WHAT A SWEEP'S LAST POINT WRITES BACK is its block of that array. -/
theorem flushed_mean (c : Dev nD) (t : Fin cfg0.N) (hf : (cfg0.win 1).flush t = true) :
    (dat0 V c).flushed 1 t = ((cfg0.win 1).blk t).view.read (Elt Ideal) (mean (A := 32) (B := 512) (V c main_arg0)) := by
  have h1 : t.val % 16 = 15 := (flush0_1 t).mp hf
  have h0 : ¬t.val % 16 = 0 := by omega
  obtain ⟨o0, o1⟩ := out_index t
  show (cfg0.win 1).cut (grid0.coords t) ((dat0 V c).after 1 t) = _
  rw [dat0_after1, leftAt_last V c t h0 h1]
  dsimp only
  rw [out_last]
  funext y
  obtain ⟨p, q, rfl⟩ : ∃ (p : Fin 16) (q : Fin 512), y = ix2 p q := ⟨y 0, y 1, eq_ix2 y⟩
  show k0_pay3 (k0_pay2 (leftAt V c (t.val - 1) _).2 (blk0 V c 0 t)) (ix2 p q)
    = mean (A := 32) (B := 512) (V c main_arg0) (((cfg0.win 1).blk t).view.emb (ix2 p q))
  rw [scalePay_apply, sumPay_apply, acc_eq V c (t.val - 1) (Nat.lt_of_le_of_lt (Nat.sub_le _ _) t.isLt) p q, blockRow_eq V c t p q]
  have hprev : t.val - 1 + 1 = t.val := by omega
  have hstep := runSum_step 16 (stepTerm (V c main_arg0) p.val q.val) (t.val - 1) (by rw [hprev]; exact h0)
  rw [hprev] at hstep
  rw [← hstep]
  obtain ⟨k, hk⟩ : ∃ k, t.val = 16 * k + 15 := ⟨t.val / 16, by omega⟩
  rw [hk, runSum_sweep_end]
  unfold mean
  have r0 : ((((cfg0.win 1).blk t).view.emb (ix2 p q)) 0).val = 16 * k + p.val := by
    show win0_1.index t (0 : Fin 2) * 16 + 1 * p.val = _; omega
  have r1 : ((((cfg0.win 1).blk t).view.emb (ix2 p q)) 1).val = q.val := by
    show win0_1.index t (1 : Fin 2) * 512 + 1 * q.val = _; omega
  rw [r0, r1]

/-- An index of the [32, 512] array is in point `t`'s block iff each coordinate is in the block's range. -/
theorem mem_out_blk (t : Fin cfg0.N) (i : S32x512.Idx) :
    i ∈ ((cfg0.win 1).blk t).view.set ↔ ∀ a : Fin 2, win0_1.index t a * S16x512.size a ≤ (i a).val ∧ (i a).val < win0_1.index t a * S16x512.size a + S16x512.size a := by
  show i ∈ ((View.whole main_v0).slice (win0_1.rect t)).set ↔ _
  rw [View.set_slice_whole, Rect.mem_set_unit]
  exact Iff.rfl

/-- Every entry is in the block written back at the end of its sweep. -/
theorem out_covered (i : S32x512.Idx) : ∃ t : Fin cfg0.N, (cfg0.win 1).flush t = true ∧ i ∈ ((cfg0.win 1).blk t).view.set := by
  have hi0 : (i 0).val < 32 := (i 0).isLt
  have hi1 : (i 1).val < 512 := (i 1).isLt
  refine ⟨⟨16 * ((i 0).val / 16) + 15, lt_N (by omega)⟩, (flush0_1 _).mpr (by show (16 * ((i 0).val / 16) + 15) % 16 = 15; omega), ?_⟩
  rw [mem_out_blk]
  obtain ⟨o0, o1⟩ := out_index ⟨16 * ((i 0).val / 16) + 15, lt_N (by omega)⟩
  have o0' : win0_1.index ⟨16 * ((i 0).val / 16) + 15, lt_N (by omega)⟩ (0 : Fin 2) = (i 0).val / 16 := by
    rw [o0]; show (16 * ((i 0).val / 16) + 15) / 16 = _; omega
  intro a
  match a with
  | ⟨0, _⟩ => show win0_1.index _ (0 : Fin 2) * 16 ≤ (i 0).val ∧ (i 0).val < win0_1.index _ (0 : Fin 2) * 16 + 16; rw [o0']; omega
  | ⟨1, _⟩ => show win0_1.index _ (1 : Fin 2) * 512 ≤ (i 1).val ∧ (i 1).val < win0_1.index _ (1 : Fin 2) * 512 + 512; rw [o1]; omega

/-- THE ARRAY the mean region leaves. -/
theorem mean_array (c : Dev nD) : (dat0 V c).arrAt 1 cfg0.N = mean (A := 32) (B := 512) (V c main_arg0) :=
  (dat0 V c).arrAt_eq_of_cover 1 (mean (A := 32) (B := 512) (V c main_arg0)) (fun t hf => flushed_mean V c t hf) (fun i => out_covered i)

end Region

end Cert.KernelIdeal.Fr

end
-- ==== Proof.GateValue.lean ====
/-
  The gate region's result at the extended reals. Its grid has one point and every window's block is its whole array,
  so each input block is its array as the region finds it, and the one written-back block — the whole threshold array —
  is the body's payload of those arrays.
-/
import proofs.«172012_j78245714198911_2_alg».proof.Proof.KernelIdeal.Gate
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem nought1 : (![0] : Fin 1 → Nat) = fun _ => 0 := funext fun a => by fin_cases a <;> rfl
theorem nought2 : (![0, 0] : Fin 2 → Nat) = fun _ => 0 := funext fun a => by fin_cases a <;> rfl

/-- Every window's block index is zero on every axis at the grid's one point. -/
theorem idx1_0 : ∀ (t : Fin cfg1.N) (a : Fin 2), win1_0.index t a = 0 :=
  (by decide +kernel : ∀ (t : Fin grid1.N) (a : Fin 2), win1_0.index t a = 0)
theorem idx1_1 : ∀ (t : Fin cfg1.N) (a : Fin 2), win1_1.index t a = 0 :=
  (by decide +kernel : ∀ (t : Fin grid1.N) (a : Fin 2), win1_1.index t a = 0)
theorem idx1_2 : ∀ (t : Fin cfg1.N) (a : Fin 1), win1_2.index t a = 0 :=
  (by decide +kernel : ∀ (t : Fin grid1.N) (a : Fin 1), win1_2.index t a = 0)
theorem idx1_3 : ∀ (t : Fin cfg1.N) (a : Fin 1), win1_3.index t a = 0 :=
  (by decide +kernel : ∀ (t : Fin grid1.N) (a : Fin 1), win1_3.index t a = 0)
theorem idx1_4 : ∀ (t : Fin cfg1.N) (a : Fin 1), win1_4.index t a = 0 :=
  (by decide +kernel : ∀ (t : Fin grid1.N) (a : Fin 1), win1_4.index t a = 0)
theorem idx1_5 : ∀ (t : Fin cfg1.N) (a : Fin 1), win1_5.index t a = 0 :=
  (by decide +kernel : ∀ (t : Fin grid1.N) (a : Fin 1), win1_5.index t a = 0)
theorem idx1_6 : ∀ (t : Fin cfg1.N) (a : Fin 1), win1_6.index t a = 0 :=
  (by decide +kernel : ∀ (t : Fin grid1.N) (a : Fin 1), win1_6.index t a = 0)
theorem idx1_7 : ∀ (t : Fin cfg1.N) (a : Fin 2), win1_7.index t a = 0 :=
  (by decide +kernel : ∀ (t : Fin grid1.N) (a : Fin 2), win1_7.index t a = 0)
theorem idx1_8 : ∀ (t : Fin cfg1.N) (a : Fin 1), win1_8.index t a = 0 :=
  (by decide +kernel : ∀ (t : Fin grid1.N) (a : Fin 1), win1_8.index t a = 0)
theorem idx1_9 : ∀ (t : Fin cfg1.N) (a : Fin 2), win1_9.index t a = 0 :=
  (by decide +kernel : ∀ (t : Fin grid1.N) (a : Fin 2), win1_9.index t a = 0)

section Region
variable (V : (c : Dev nD) → (b : Ref sig .tc) → Buf (Elt Ideal) ((c : Thread nD τ).loc b))

/-- Input window 0's block is its whole array. -/
theorem whole1_0 (c : Dev nD) (t : Fin cfg1.N) : blk1 V c 0 t = V c main_v0 := by
  funext y
  show V c main_v0 (((cfg1.win 0).blk t).view.emb y) = V c main_v0 y
  refine congrArg _ (funext fun a => Fin.ext ?_)
  have h := idx1_0 t a
  show win1_0.index t a * S32x512.size a + 1 * (y a).val = (y a).val
  rw [h]; omega

/-- Input window 1's block is its whole array. -/
theorem whole1_1 (c : Dev nD) (t : Fin cfg1.N) : blk1 V c 1 t = V c main_arg1 := by
  funext y
  show V c main_arg1 (((cfg1.win 1).blk t).view.emb y) = V c main_arg1 y
  refine congrArg _ (funext fun a => Fin.ext ?_)
  have h := idx1_1 t a
  show win1_1.index t a * S512x512.size a + 1 * (y a).val = (y a).val
  rw [h]; omega

/-- Input window 2's block is its whole array. -/
theorem whole1_2 (c : Dev nD) (t : Fin cfg1.N) : blk1 V c 2 t = V c main_arg2 := by
  funext y
  show V c main_arg2 (((cfg1.win 2).blk t).view.emb y) = V c main_arg2 y
  refine congrArg _ (funext fun a => Fin.ext ?_)
  have h := idx1_2 t a
  show win1_2.index t a * S512.size a + 1 * (y a).val = (y a).val
  rw [h]; omega

/-- Input window 3's block is its whole array. -/
theorem whole1_3 (c : Dev nD) (t : Fin cfg1.N) : blk1 V c 3 t = V c main_arg3 := by
  funext y
  show V c main_arg3 (((cfg1.win 3).blk t).view.emb y) = V c main_arg3 y
  refine congrArg _ (funext fun a => Fin.ext ?_)
  have h := idx1_3 t a
  show win1_3.index t a * S512.size a + 1 * (y a).val = (y a).val
  rw [h]; omega

/-- Input window 4's block is its whole array. -/
theorem whole1_4 (c : Dev nD) (t : Fin cfg1.N) : blk1 V c 4 t = V c main_arg4 := by
  funext y
  show V c main_arg4 (((cfg1.win 4).blk t).view.emb y) = V c main_arg4 y
  refine congrArg _ (funext fun a => Fin.ext ?_)
  have h := idx1_4 t a
  show win1_4.index t a * S512.size a + 1 * (y a).val = (y a).val
  rw [h]; omega

/-- Input window 5's block is its whole array. -/
theorem whole1_5 (c : Dev nD) (t : Fin cfg1.N) : blk1 V c 5 t = V c main_arg5 := by
  funext y
  show V c main_arg5 (((cfg1.win 5).blk t).view.emb y) = V c main_arg5 y
  refine congrArg _ (funext fun a => Fin.ext ?_)
  have h := idx1_5 t a
  show win1_5.index t a * S512.size a + 1 * (y a).val = (y a).val
  rw [h]; omega

/-- Input window 6's block is its whole array. -/
theorem whole1_6 (c : Dev nD) (t : Fin cfg1.N) : blk1 V c 6 t = V c main_arg6 := by
  funext y
  show V c main_arg6 (((cfg1.win 6).blk t).view.emb y) = V c main_arg6 y
  refine congrArg _ (funext fun a => Fin.ext ?_)
  have h := idx1_6 t a
  show win1_6.index t a * S512.size a + 1 * (y a).val = (y a).val
  rw [h]; omega

/-- Input window 7's block is its whole array. -/
theorem whole1_7 (c : Dev nD) (t : Fin cfg1.N) : blk1 V c 7 t = V c main_arg7 := by
  funext y
  show V c main_arg7 (((cfg1.win 7).blk t).view.emb y) = V c main_arg7 y
  refine congrArg _ (funext fun a => Fin.ext ?_)
  have h := idx1_7 t a
  show win1_7.index t a * S512x512.size a + 1 * (y a).val = (y a).val
  rw [h]; omega

/-- Input window 8's block is its whole array. -/
theorem whole1_8 (c : Dev nD) (t : Fin cfg1.N) : blk1 V c 8 t = V c main_arg8 := by
  funext y
  show V c main_arg8 (((cfg1.win 8).blk t).view.emb y) = V c main_arg8 y
  refine congrArg _ (funext fun a => Fin.ext ?_)
  have h := idx1_8 t a
  show win1_8.index t a * S512.size a + 1 * (y a).val = (y a).val
  rw [h]; omega

/-- The thresholds as the body computes them from the arrays the region finds. -/
def thrK (c : Dev nD) : S32x512.Idx → EReal :=
  k1_pay1 (F := Ideal) (V c main_v0) (V c main_arg1) (V c main_arg2) (V c main_arg3) (V c main_arg5) (V c main_arg6)
    (V c main_arg4) (V c main_arg7) (V c main_arg8)

/-- WHAT THE ONE POINT WRITES BACK is the whole threshold array. -/
theorem flushed_thr (c : Dev nD) (t : Fin cfg1.N) :
    (dat1 V c).flushed 9 t = ((cfg1.win 9).blk t).view.read (Elt Ideal) (thrK V c) := by
  show (cfg1.win 9).cut (grid1.coords t) ((dat1 V c).after 9 t) = _
  rw [dat1_after9]
  unfold res1
  rw [View.canon_unit_zero nought2]
  simp only [View.ld_unit_zero (S := S32x512) nought2, View.ld_unit_zero (S := S512x512) nought2,
    View.ld_unit_zero (S := S512) nought1]
  rw [whole1_0, whole1_1, whole1_2, whole1_3, whole1_4, whole1_5, whole1_6, whole1_7, whole1_8]
  funext y
  show thrK V c y = thrK V c (((cfg1.win 9).blk t).view.emb y)
  refine congrArg _ (funext fun a => Fin.ext ?_)
  have h := idx1_9 t a
  show (y a).val = win1_9.index t a * S32x512.size a + 1 * (y a).val
  rw [h]; omega

/-- Every entry is in the one block. -/
theorem thr_covered (i : S32x512.Idx) : ∃ t : Fin cfg1.N, (cfg1.win 9).flush t = true ∧ i ∈ ((cfg1.win 9).blk t).view.set := by
  refine ⟨t1_0, flush1_9 _, ?_⟩
  show i ∈ ((View.whole main_v1).slice (win1_9.rect t1_0)).set
  rw [View.set_slice_whole, Rect.mem_set_unit]
  intro a
  have h := idx1_9 t1_0 a
  show win1_9.index t1_0 a * S32x512.size a ≤ (i a).val ∧ (i a).val < win1_9.index t1_0 a * S32x512.size a + S32x512.size a
  rw [h]
  have := (i a).isLt
  constructor
  · omega
  · rw [Nat.zero_mul, Nat.zero_add]; exact this

/-- THE ARRAY the gate region leaves. -/
theorem thr_array (c : Dev nD) : (dat1 V c).arrAt 9 cfg1.N = thrK V c :=
  (dat1 V c).arrAt_eq_of_cover 9 (thrK V c) (fun t _ => flushed_thr V c t) (fun i => thr_covered i)

end Region

end Cert.KernelIdeal.Fr

end
-- ==== Proof.LibTrailingAxis.lean ====
/-
  General lemmas: a matrix `[a, b]` recast to `[a, b, 1]` and spread along a new last axis to `[a, b, n]`, read at an
  index: entry `(p, q, l)` of the result is entry `(p, q)` of the matrix. None mentions a program.
-/
import Idealize.ShloMosaic.Lib.ValueIdx
import Idealize.ShloMosaic.Lib.Pipeline.Value

noncomputable section

namespace Cert.TrailingAxis

open Idealize.ShloMosaic Idealize.ShloMosaic.ValueIdx

variable {α : Type}

/-- A matrix recast with a trailing unit axis, read at `(p, q, u)`: the matrix's entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- An array with a trailing unit axis spread along that axis, read at `(p, q, l)`: its entry `(p, q, 0)`. -/
theorem broadcastTo_ab1_abn_apply {a b n : ℕ} (v : (⟨3, ![a, b, 1]⟩ : Shape).Idx → α) (h : (⟨3, ![a, b, 1]⟩ : Shape).Broadcasts ⟨3, ![a, b, n]⟩)
    (p : Fin a) (q : Fin b) (l : Fin n) : broadcastTo ⟨3, ![a, b, n]⟩ v h (ix3 p q l) = v (ix3 p q (0 : Fin 1)) := by
  refine broadcastTo_apply v h (ix3 p q l) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else l.val
    rw [if_pos rfl]

end Cert.TrailingAxis

end
-- ==== Proof.CombineValue.lean ====
/-
  The combine region's result at the extended reals. Each of the 64 written-back blocks [32, 512, 128] holds, entry by
  entry, min(|x| − thr, 0) of the matching entry of the big array and the threshold of its first two coordinates; the
  blocks tile the long axis, so the array the region leaves is that one function of the two arrays it was handed.
-/
import proofs.«172012_j78245714198911_2_alg».proof.Proof.KernelIdeal.Combine
import proofs.«172012_j78245714198911_2_alg».proof.Proof.LibTrailingAxis
import proofs.«172012_j78245714198911_2_alg».proof.Proof.MeanSpec
import Idealize.ShloMosaic.Lib.ValueIdx
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.TrailingAxis Cert.MeanSpec

theorem zeroes2 : (![0, 0] : Fin 2 → Nat) = fun _ => 0 := funext fun a => by fin_cases a <;> rfl
theorem zeroes3 : (![0, 0, 0] : Fin 3 → Nat) = fun _ => 0 := funext fun a => by fin_cases a <;> rfl

/-- The body's payload at an entry of the block. -/
theorem combinePay_apply (x0 : FVec Ideal S32x512x128 .f32) (x1 : FVec Ideal S32x512 .f32) (b : Fin 32) (ch : Fin 512) (l : Fin 128) :
    k2_pay1 (F := Ideal) x0 x1 (ix3 b ch l) = min (max (x0 (ix3 b ch l)) (-(x0 (ix3 b ch l))) - x1 (ix2 b ch)) 0 := by
  unfold k2_pay1
  show min (max (x0 (ix3 b ch l)) (-(x0 (ix3 b ch l)))
      - broadcastTo S32x512x128 (shapeCast S32x512x1 (shapeCast S32x512 x1 shapeCasts_S32x512_S32x512) shapeCasts_S32x512_S32x512x1)
          broadcasts_S32x512x1_S32x512x128 (ix3 b ch l))
    (Ideal.ofBits .f32 0x00000000#32) = _
  rw [broadcastTo_ab1_abn_apply, shapeCast_ab_ab1_apply, shapeCast_self, Ideal.ofBits_zero_f32]

/-- The windows' block indices over the grid: point `t` is block `t` of the long axis; the thresholds are one block. -/
theorem idx2 : ∀ t : Fin cfg2.N, win2_0.index t (0 : Fin 3) = 0 ∧ win2_0.index t (1 : Fin 3) = 0 ∧ win2_0.index t (2 : Fin 3) = t.val
    ∧ win2_1.index t (0 : Fin 2) = 0 ∧ win2_1.index t (1 : Fin 2) = 0
    ∧ win2_2.index t (0 : Fin 3) = 0 ∧ win2_2.index t (1 : Fin 3) = 0 ∧ win2_2.index t (2 : Fin 3) = t.val :=
  (by decide +kernel : ∀ t : Fin grid2.N, win2_0.index t (0 : Fin 3) = 0 ∧ win2_0.index t (1 : Fin 3) = 0 ∧ win2_0.index t (2 : Fin 3) = t.val
    ∧ win2_1.index t (0 : Fin 2) = 0 ∧ win2_1.index t (1 : Fin 2) = 0
    ∧ win2_2.index t (0 : Fin 3) = 0 ∧ win2_2.index t (1 : Fin 3) = 0 ∧ win2_2.index t (2 : Fin 3) = t.val)

section Region
variable (V : (c : Dev nD) → (b : Ref sig .tc) → Buf (Elt Ideal) ((c : Thread nD τ).loc b))

/-- WHAT POINT `t` WRITES BACK is block `t` of the soft threshold of the arrays as the region finds them. -/
theorem flushed_soft (c : Dev nD) (t : Fin cfg2.N) :
    (dat2 V c).flushed 2 t = ((cfg2.win 2).blk t).view.read (Elt Ideal) (soft (A := 32) (B := 512) (R := 8192) (V c main_arg0) (V c main_v1)) := by
  obtain ⟨a0, a1, a2, t0, t1, o0, o1, o2⟩ := idx2 t
  show (cfg2.win 2).cut (grid2.coords t) ((dat2 V c).after 2 t) = _
  rw [dat2_after2]
  unfold res2
  rw [View.canon_unit_zero zeroes3]
  simp only [View.ld_unit_zero (S := S32x512x128) zeroes3, View.ld_unit_zero (S := S32x512) zeroes2]
  funext y
  obtain ⟨b, ch, l, rfl⟩ : ∃ (b : Fin 32) (ch : Fin 512) (l : Fin 128), y = ix3 b ch l := ⟨y 0, y 1, y 2, eq_ix3 y⟩
  show k2_pay1 (F := Ideal) (blk2 V c 0 t) (blk2 V c 1 t) (ix3 b ch l)
    = soft (A := 32) (B := 512) (R := 8192) (V c main_arg0) (V c main_v1) (((cfg2.win 2).blk t).view.emb (ix3 b ch l))
  rw [combinePay_apply]
  unfold soft
  have ex : blk2 V c 0 t (ix3 b ch l) = V c main_arg0 (((cfg2.win 2).blk t).view.emb (ix3 b ch l)) := by
    show V c main_arg0 (((cfg2.win 0).blk t).view.emb (ix3 b ch l)) = _
    refine congrArg _ (funext fun a => Fin.ext ?_)
    match a with
    | ⟨0, _⟩ => show win2_0.index t (0 : Fin 3) * 32 + 1 * b.val = win2_2.index t (0 : Fin 3) * 32 + 1 * b.val; omega
    | ⟨1, _⟩ => show win2_0.index t (1 : Fin 3) * 512 + 1 * ch.val = win2_2.index t (1 : Fin 3) * 512 + 1 * ch.val; omega
    | ⟨2, _⟩ => show win2_0.index t (2 : Fin 3) * 128 + 1 * l.val = win2_2.index t (2 : Fin 3) * 128 + 1 * l.val; omega
  have et : blk2 V c 1 t (ix2 b ch) = V c main_v1 (ix2 (n0 := 32) (n1 := 512)
      ⟨((((cfg2.win 2).blk t).view.emb (ix3 b ch l)) 0).val, ((((cfg2.win 2).blk t).view.emb (ix3 b ch l)) 0).isLt⟩
      ⟨((((cfg2.win 2).blk t).view.emb (ix3 b ch l)) 1).val, ((((cfg2.win 2).blk t).view.emb (ix3 b ch l)) 1).isLt⟩) := by
    show V c main_v1 (((cfg2.win 1).blk t).view.emb (ix2 b ch)) = _
    refine congrArg _ (funext fun a => Fin.ext ?_)
    match a with
    | ⟨0, _⟩ => show win2_1.index t (0 : Fin 2) * 32 + 1 * b.val = win2_2.index t (0 : Fin 3) * 32 + 1 * b.val; omega
    | ⟨1, _⟩ => show win2_1.index t (1 : Fin 2) * 512 + 1 * ch.val = win2_2.index t (1 : Fin 3) * 512 + 1 * ch.val; omega
  rw [ex, et]

/-- An index of the big array is in point `t`'s block iff each coordinate is in the block's range. -/
theorem mem_soft_blk (t : Fin cfg2.N) (i : S32x512x8192.Idx) :
    i ∈ ((cfg2.win 2).blk t).view.set ↔ ∀ a : Fin 3, win2_2.index t a * S32x512x128.size a ≤ (i a).val ∧ (i a).val < win2_2.index t a * S32x512x128.size a + S32x512x128.size a := by
  show i ∈ ((View.whole main_v2).slice (win2_2.rect t)).set ↔ _
  rw [View.set_slice_whole, Rect.mem_set_unit]
  exact Iff.rfl

/-- Every entry is in the block of its stretch of the long axis. -/
theorem soft_covered (i : S32x512x8192.Idx) : ∃ t : Fin cfg2.N, (cfg2.win 2).flush t = true ∧ i ∈ ((cfg2.win 2).blk t).view.set := by
  have hi0 : (i 0).val < 32 := (i 0).isLt
  have hi1 : (i 1).val < 512 := (i 1).isLt
  have hi2 : (i 2).val < 8192 := (i 2).isLt
  have hlt : (i 2).val / 128 < cfg2.N := lt_of_lt_of_eq (by omega : (i 2).val / 128 < 64) N_2.symm
  refine ⟨⟨(i 2).val / 128, hlt⟩, flush2_2 _, ?_⟩
  rw [mem_soft_blk]
  obtain ⟨a0, a1, a2, t0, t1, o0, o1, o2⟩ := idx2 ⟨(i 2).val / 128, hlt⟩
  have o2' : win2_2.index ⟨(i 2).val / 128, hlt⟩ (2 : Fin 3) = (i 2).val / 128 := o2
  intro a
  match a with
  | ⟨0, _⟩ => show win2_2.index _ (0 : Fin 3) * 32 ≤ (i 0).val ∧ (i 0).val < win2_2.index _ (0 : Fin 3) * 32 + 32; rw [o0]; omega
  | ⟨1, _⟩ => show win2_2.index _ (1 : Fin 3) * 512 ≤ (i 1).val ∧ (i 1).val < win2_2.index _ (1 : Fin 3) * 512 + 512; rw [o1]; omega
  | ⟨2, _⟩ => show win2_2.index _ (2 : Fin 3) * 128 ≤ (i 2).val ∧ (i 2).val < win2_2.index _ (2 : Fin 3) * 128 + 128; rw [o2']; omega

/-- THE ARRAY the combine region leaves. -/
theorem soft_array (c : Dev nD) : (dat2 V c).arrAt 2 cfg2.N = soft (A := 32) (B := 512) (R := 8192) (V c main_arg0) (V c main_v1) :=
  (dat2 V c).arrAt_eq_of_cover 2 (soft (A := 32) (B := 512) (R := 8192) (V c main_arg0) (V c main_v1)) (fun t _ => flushed_soft V c t) (fun i => soft_covered i)

end Region

end Cert.KernelIdeal.Fr

end
-- ==== Proof.Final.lean ====
/-
  The kernel program's result at the extended reals, read off the run: the last boundary's contents of the result
  buffer are the combine region's array of the big array and the gate region's array; the gate region's array is the
  gate payload of the mean region's array and the parameters; the mean region's array is the mean of the big array.
  Every argument reaches each region as launched.
-/
import proofs.«172012_j78245714198911_2_alg».proof.Proof.KernelIdeal.Run
import proofs.«172012_j78245714198911_2_alg».proof.Proof.ReduceValue
import proofs.«172012_j78245714198911_2_alg».proof.Proof.GateValue
import proofs.«172012_j78245714198911_2_alg».proof.Proof.CombineValue

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.MeanSpec

variable (m : (ℓ : Loc nD τ sig) → Buf (Elt Ideal) ℓ) (ρ : Dev nD → PrngReg)

/-- After the mean region the pooled-means buffer holds the mean of the big array. -/
theorem E1_v0 (c : Dev nD) : E1 m ρ c main_v0 = mean (A := 32) (B := 512) (m ((c : Thread nD τ).loc main_arg0)) :=
  (B1_arr m ρ c 1).trans (mean_array (E0 m ρ) c)

/-- A buffer the mean region does not touch reaches the gate region as launched. -/
theorem E1_arg (c : Dev nD) (b : Ref sig .tc) (h0 : ∀ w', Pipeline.arrRef spec0 w' ≠ b) :
    E1 m ρ c b = m ((c : Thread nD τ).loc b) := B1_of_ne m ρ c b h0

/-- The big array reaches the combine region as launched. -/
theorem E2_arg0 (c : Dev nD) : E2 m ρ c main_arg0 = m ((c : Thread nD τ).loc main_arg0) :=
  (B2_of_ne m ρ c main_arg0 (by decide)).trans
    ((B1_arr m ρ c 0).trans (((dat0 (E0 m ρ) c).arrAt_in 0 rfl _).trans (dat0_A (E0 m ρ) c 0)))

/-- The thresholds as a function of the launch contents. -/
def thresholds (c : Dev nD) : S32x512.Idx → EReal :=
  k1_pay1 (F := Ideal) (mean (A := 32) (B := 512) (m ((c : Thread nD τ).loc main_arg0)))
    (m ((c : Thread nD τ).loc main_arg1)) (m ((c : Thread nD τ).loc main_arg2)) (m ((c : Thread nD τ).loc main_arg3))
    (m ((c : Thread nD τ).loc main_arg5)) (m ((c : Thread nD τ).loc main_arg6)) (m ((c : Thread nD τ).loc main_arg4))
    (m ((c : Thread nD τ).loc main_arg7)) (m ((c : Thread nD τ).loc main_arg8))

/-- After the gate region the threshold buffer holds them. -/
theorem E2_v1 (c : Dev nD) : E2 m ρ c main_v1 = thresholds m c := by
  refine (B2_arr m ρ c 9).trans ((thr_array (E1 m ρ) c).trans ?_)
  unfold thrK thresholds
  rw [E1_v0, E1_arg m ρ c main_arg1 (by decide), E1_arg m ρ c main_arg2 (by decide), E1_arg m ρ c main_arg3 (by decide),
    E1_arg m ρ c main_arg4 (by decide), E1_arg m ρ c main_arg5 (by decide), E1_arg m ρ c main_arg6 (by decide),
    E1_arg m ρ c main_arg7 (by decide), E1_arg m ρ c main_arg8 (by decide)]

/-- THE RESULT: at the end the result buffer holds the soft threshold of the big array and the thresholds. -/
theorem B3_result (c : Dev nD) :
    B3 m ρ c (Proc.devRef .tc main_v2)
      = soft (A := 32) (B := 512) (R := 8192) (m ((c : Thread nD τ).loc main_arg0)) (thresholds m c) := by
  refine (B3_arr m ρ c 2).trans ((soft_array (E2 m ρ) c).trans ?_)
  rw [E2_arg0, E2_v1]

/-- THE RUN WITH ITS VALUE: every weakly fair execution terminates, nothing faulting, with the result buffer at that
    function of the launch contents and every argument as launched. -/
theorem run_value : θ_run defs (onTc (τ := τ) (main (F := Ideal))) ⟨m, fun _ => 0, ρ⟩ (fun r => ∀ c : Dev nD,
      r.2.mem ((c.tc : Thread nD τ).loc main_v2)
        = soft (A := 32) (B := 512) (R := 8192) (m ((c.tc : Thread nD τ).loc main_arg0)) (thresholds m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v2 (by decide))).trans (B3_result m ρ c),
     (h c _ (mem_uc main_arg0 (by decide))).trans (B3_main_arg0 m ρ c),
     (h c _ (mem_uc main_arg1 (by decide))).trans (B3_gate_arg m ρ c 1 rfl main_arg1 rfl (by decide) (by decide)),
     (h c _ (mem_uc main_arg2 (by decide))).trans (B3_gate_arg m ρ c 2 rfl main_arg2 rfl (by decide) (by decide)),
     (h c _ (mem_uc main_arg3 (by decide))).trans (B3_gate_arg m ρ c 3 rfl main_arg3 rfl (by decide) (by decide)),
     (h c _ (mem_uc main_arg4 (by decide))).trans (B3_gate_arg m ρ c 4 rfl main_arg4 rfl (by decide) (by decide)),
     (h c _ (mem_uc main_arg5 (by decide))).trans (B3_gate_arg m ρ c 5 rfl main_arg5 rfl (by decide) (by decide)),
     (h c _ (mem_uc main_arg6 (by decide))).trans (B3_gate_arg m ρ c 6 rfl main_arg6 rfl (by decide) (by decide)),
     (h c _ (mem_uc main_arg7 (by decide))).trans (B3_gate_arg m ρ c 7 rfl main_arg7 rfl (by decide) (by decide)),
     (h c _ (mem_uc main_arg8 (by decide))).trans (B3_gate_arg m ρ c 8 rfl main_arg8 rfl (by decide) (by decide))⟩) (run_all m ρ)

end Cert.KernelIdeal.Fr

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«172012_j78245714198911_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«172012_j78245714198911_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«172012_j78245714198911_2_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.GateLaw.lean ====
/-
  The gate as one whole-array law. From the pooled means `a` both programs compute
      a · logistic( relu( γ · ((a · W1ᵀ + b1) − μ) · rsqrt(σ + ε) + β ) · W2ᵀ + b2 ),
  the kernel with the matrix unit contracting both operands along their last axis and the vector unit's logistic, the
  reference with a transposed weight matrix, a general dot and the logistic spelt as 1 / (1 + exp(−·)). Read at the
  extended reals the matrix products are the same plain product with the transposed weights, the bias rows are the same
  rows, and the logistic is that quotient by definition; the steps stand in the same order on both sides, so the two are
  one term once each operation is read.
-/
import proofs.«172012_j78245714198911_2_alg».proof.Proof.Gen.KernelIdeal.Skeleton
import proofs.«172012_j78245714198911_2_alg».proof.Proof.Gen.ReferenceIdeal.Read
import proofs.«172012_j78245714198911_2_alg».proof.Proof.LibTransposed
import proofs.«172012_j78245714198911_2_alg».proof.Proof.Consts

noncomputable section

namespace Cert.ReferenceIdeal.Law

open Cert.ReferenceIdeal Cert.ReferenceIdeal.Gen Cert.ReferenceIdeal.Read
open Idealize.ShloMosaic Idealize.ShloMosaic.ValueIdx
open Cert.LayoutLib Cert.DenseLib Cert.RowBlocks Cert.TransposedLib

/-- A vector laid along every row of a [32, 512] array, in the host's two steps. -/
abbrev alongRows (v : FVec Ideal S512 .f32) : FVec Ideal S32x512 .f32 :=
  broadcastInDim S32x512 ![0, 1] bcast_S1x512_S32x512_0_1 (broadcastInDim S1x512 ![1] bcast_S512_S1x512_1 v)

/-- The host's chain from the pooled means `a` to the thresholds. -/
def hostGate (a : FVec Ideal S32x512 .f32) (x1 : FVec Ideal S512x512 .f32) (x2 x3 x4 x5 x6 : FVec Ideal S512 .f32)
    (x7 : FVec Ideal S512x512 .f32) (x8 : FVec Ideal S512 .f32) : FVec Ideal S32x512 .f32 :=
  mulf a
    (Host.divf (broadcastInDim S32x512 ![] bcast_S_S32x512 (constant S_ .f32 0x3F800000#32))
      (addf (broadcastInDim S32x512 ![] bcast_S_S32x512 (constant S_ .f32 0x3F800000#32))
        (Host.exp (Host.negf
          (addf
            (Host.dotGeneral dot_S32x512_S512x512_S32x512_1_0_0_1_n_n none
              (maximumf
                (addf
                  (mulf
                    (mulf (alongRows x3)
                      (subf
                        (addf
                          (Host.dotGeneral dot_S32x512_S512x512_S32x512_1_0_0_1_n_n none a
                            (transpose S512x512 [1, 0] x1 transposes_S512x512_S512x512_1_0))
                          (alongRows x2))
                        (alongRows x5)))
                    (alongRows (Host.rsqrt (addf x6 (broadcastInDim S512 ![] bcast_S_S512 (constant S_ .f32 0x3727C5AC#32))))))
                  (alongRows x4))
                (broadcastInDim S32x512 ![] bcast_S_S32x512 (constant S_ .f32 0x00000000#32)))
              (transpose S512x512 [1, 0] x7 transposes_S512x512_S512x512_1_0))
            (alongRows x8))))))

/-- The reference's threshold stage is that chain from its mean stage. -/
theorem thr_stage (x0 : FVec Ideal S32x512x8192 .f32) (x1 : FVec Ideal S512x512 .f32) (x2 x3 x4 x5 x6 : FVec Ideal S512 .f32)
    (x7 : FVec Ideal S512x512 .f32) (x8 : FVec Ideal S512 .f32) :
    val_main_v36 (F := Ideal) x0 x1 x2 x3 x4 x5 x6 x7 x8 = hostGate (val_main_v3 (F := Ideal) x0) x1 x2 x3 x4 x5 x6 x7 x8 := rfl

/-- A scalar constant spread over a shape, in the host's spelling, is the splat. -/
theorem splat_eq (s : Shape) (h : S_.BroadcastsInDim s (![] : Fin 0 → Fin s.rank)) (w : BitVec 32) :
    broadcastInDim s ![] h (constant (F := Ideal) S_ .f32 w) = broadcast s (Scalar.ofBits (F := Ideal) .f32 w) :=
  funext fun j => broadcastInDim_scalar_apply h _ j

/-- The host's reciprocal square root is the vector unit's. -/
theorem hostRsqrt_eq {s : Shape} (v : FVec Ideal s .f32) : Host.rsqrt v = rsqrt v := rfl

/-- The logistic spelt as a quotient is the vector unit's logistic. -/
theorem quotient_eq_logistic {s : Shape} (z : FVec Ideal s .f32) :
    Host.divf (broadcast s (Scalar.ofBits (F := Ideal) .f32 0x3F800000#32))
      (addf (broadcast s (Scalar.ofBits (F := Ideal) .f32 0x3F800000#32)) (Host.exp (Host.negf z))) = logistic z := by
  funext i
  show Ideal.div (Ideal.ofBits .f32 0x3F800000#32) (Ideal.ofBits .f32 0x3F800000#32 + Ideal.exp (-(z i))) = Ideal.logistic (z i)
  rw [Cert.Consts.ofBits_one]
  rfl

/-- THE LAW: the kernel's gate payload is the host's chain, as whole arrays, for any pooled means and parameters. -/
theorem gate_law (a : FVec Ideal S32x512 .f32) (x1 : FVec Ideal S512x512 .f32) (x2 x3 x4 x5 x6 : FVec Ideal S512 .f32)
    (x7 : FVec Ideal S512x512 .f32) (x8 : FVec Ideal S512 .f32) :
    Cert.KernelIdeal.Gen.k1_pay1 (F := Ideal) a x1 x2 x3 x5 x6 x4 x7 x8 = hostGate a x1 x2 x3 x4 x5 x6 x7 x8 := by
  unfold Cert.KernelIdeal.Gen.k1_pay1 hostGate
  dsimp only
  simp only [shapeCast_self, truncf_eq, hostRsqrt_eq]
  rw [splat_eq S32x512 bcast_S_S32x512 0x3F800000#32, splat_eq S32x512 bcast_S_S32x512 0x00000000#32,
    splat_eq S512 bcast_S_S512 0x3727C5AC#32, quotient_eq_logistic]
  rw [matmul_transposedRhs_eq_mm Cert.KernelIdeal.dot_S32x512_S512x512_S32x512_1_1_0_0_n_n rfl,
    matmul_transposedRhs_eq_mm Cert.KernelIdeal.dot_S32x512_S512x512_S32x512_1_1_0_0_n_n rfl,
    dotGeneral_eq_mm dot_S32x512_S512x512_S32x512_1_0_0_1_n_n rfl, dotGeneral_eq_mm dot_S32x512_S512x512_S32x512_1_0_0_1_n_n rfl,
    transpose_eq_tr, transpose_eq_tr]
  simp only [broadcastTo_eq_rows, broadcastInDim_eq_rows, shapeCast_vecRow_apply, maximumf_splat_zero]

end Cert.ReferenceIdeal.Law

end
-- ==== Proof.RefValue.lean ====
/-
  The reference's result, stage by stage: its mean stage is the mean as one function (a sum over all 8192 entries of
  a row, divided by 8192 — the same entries the kernel adds block by block, and on the extended reals dividing by 8192
  is multiplying by 2⁻¹³); its threshold stage is the host's gate chain from the mean; its last stage is the soft
  threshold of the big array and the thresholds.
-/
import proofs.«172012_j78245714198911_2_alg».proof.Proof.GateLaw
import proofs.«172012_j78245714198911_2_alg».proof.Proof.MeanSpec

noncomputable section

namespace Cert.ReferenceIdeal.Law

open Cert.ReferenceIdeal Cert.ReferenceIdeal.Gen Cert.ReferenceIdeal.Read
open Idealize.ShloMosaic Idealize.ShloMosaic.ValueIdx Cert.MeanSpec

/-- The reference's mean stage is the mean. -/
theorem mean_stage (x0 : FVec Ideal S32x512x8192 .f32) : val_main_v3 (F := Ideal) x0 = mean (A := 32) (B := 512) x0 := by
  funext i
  rw [val_main_v3_apply, val_main_v1_apply, val_main_v2_apply, val_main_cst_0_apply, val_main_cst_apply]
  show Ideal.div (Ideal.ofBits .f32 0x00000000#32 + ∑ k : Fin 8192, x0 (idx_main_v1 i k)) (Ideal.ofBits .f32 0x46000000#32) = _
  rw [Ideal.ofBits_zero_f32, zero_add, Cert.Consts.ofBits_8192, div_8192,
    sum_fin_eq_rowTotal x0 (i 0).val (i 1).val (idx_main_v1 i) (fun k => ⟨rfl, rfl, rfl⟩)]
  rfl

/-- The reference's last stage is the soft threshold of the big array and its threshold stage. -/
theorem out_stage (x0 : FVec Ideal S32x512x8192 .f32) (x1 : FVec Ideal S512x512 .f32) (x2 x3 x4 x5 x6 : FVec Ideal S512 .f32)
    (x7 : FVec Ideal S512x512 .f32) (x8 : FVec Ideal S512 .f32) :
    val_main_v41 (F := Ideal) x0 x1 x2 x3 x4 x5 x6 x7 x8
      = soft (A := 32) (B := 512) (R := 8192) x0 (val_main_v36 (F := Ideal) x0 x1 x2 x3 x4 x5 x6 x7 x8) := by
  funext i
  rw [val_main_v41_apply, val_main_v39_apply, val_main_v0_apply, val_main_v38_apply, val_main_v37_apply, val_main_v40_apply,
    val_main_cst_4_apply]
  show min (max (x0 i) (-(x0 i)) - val_main_v36 (F := Ideal) x0 x1 x2 x3 x4 x5 x6 x7 x8 (idx_main_v37 (idx_main_v38 i)))
    (Ideal.ofBits .f32 0x00000000#32) = _
  rw [Ideal.ofBits_zero_f32]
  unfold soft
  refine congrArg (fun z => min (max (x0 i) (-(x0 i)) - val_main_v36 (F := Ideal) x0 x1 x2 x3 x4 x5 x6 x7 x8 z) 0) ?_
  exact funext fun a => Fin.ext (by match a with | ⟨0, _⟩ => rfl | ⟨1, _⟩ => rfl)

/-- THE REFERENCE'S RESULT as the soft threshold of the big array and the kernel's gate payload of the mean. -/
theorem result_eq (x0 : FVec Ideal S32x512x8192 .f32) (x1 : FVec Ideal S512x512 .f32) (x2 x3 x4 x5 x6 : FVec Ideal S512 .f32)
    (x7 : FVec Ideal S512x512 .f32) (x8 : FVec Ideal S512 .f32) :
    val_main_v41 (F := Ideal) x0 x1 x2 x3 x4 x5 x6 x7 x8
      = soft (A := 32) (B := 512) (R := 8192) x0
          (Cert.KernelIdeal.Gen.k1_pay1 (F := Ideal) (mean (A := 32) (B := 512) x0) x1 x2 x3 x5 x6 x4 x7 x8) := by
  rw [out_stage, thr_stage, mean_stage, gate_law]

end Cert.ReferenceIdeal.Law

end
-- ==== Proof.lean ====
/-
  The certificate's five claims.

  The kernel program runs three kernel regions in a row: the mean over the long axis (a [32, 512, 8192] array reduced
  to [32, 512], each half of the batch swept in 16 blocks of 512 through a scratch accumulator), the gate (two small dense
  layers with a normalisation between them, a logistic and a product with the means, in one grid point), and the
  soft-threshold combine min(|x| − thr, 0) over 64 blocks of the long axis. The reference does the same with whole-array
  host operations.

  Frames. Each region is run from its body's triple at every grid point: the first region's invariant carries
  the accumulator at a running sum that restarts at each sweep's first point; the other two keep nothing between
  points. The program is the three regions in a row, so every argument array ends as launched. The same text serves
  the word-level program and the idealized one. The reference's frame is its run with the result dropped.

  Values, at the extended reals. The mean: the kernel adds each row's entries block by block and multiplies by 2⁻¹³,
  the reference adds all 8192 at once and divides by 8192 — the same finite sum regrouped, and division by 8192 is
  multiplication by 2⁻¹³ on every extended real. The gate: both sides apply the same operations in the same order to
  the means; contraction along the last axis of both operands is the plain product with the transposed weights, and the
  logistic is 1 / (1 + exp(−·)) by definition — no finiteness is needed. The combine: the same entrywise function
  on both sides. So the two results are one function of the arguments.
-/
import proofs.«172012_j78245714198911_2_alg».proof.Defs
import proofs.«172012_j78245714198911_2_alg».proof.Proof.Gen.Kernel
import proofs.«172012_j78245714198911_2_alg».proof.Proof.Gen.KernelIdeal
import proofs.«172012_j78245714198911_2_alg».proof.Proof.Gen.ReferenceIdeal
import proofs.«172012_j78245714198911_2_alg».proof.Proof.Gen.Pre_finite_inputs
import proofs.«172012_j78245714198911_2_alg».proof.Proof.Gen.ReferenceIdeal.Run
import proofs.«172012_j78245714198911_2_alg».proof.Proof.Kernel.Run
import proofs.«172012_j78245714198911_2_alg».proof.Proof.Final
import proofs.«172012_j78245714198911_2_alg».proof.Proof.RefValue

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the soft threshold of the big array and the gate's thresholds of its mean. -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Law.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
